-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512 : Shape := ⟨3, ![2, 512, 512]⟩
abbrev S128x512 : Shape := ⟨2, ![128, 512]⟩
abbrev S128 : Shape := ⟨1, ![128]⟩
abbrev S512x128 : Shape := ⟨2, ![512, 128]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_

variable [Facts]

def fn_part2 {F : FTy → Type} [FloatOps F] (main_arg7 : FVec F S128 .f32) (main_arg8 : FVec F S512x128 .f32) (main_arg9 : FVec F S128x512 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S512x128 .f32 := Host.absf main_arg8
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128x512 .f32 := Host.absf main_arg9
  let main_cst_16 : FVec F S_ .f32 := constant S_ .f32 0x7F800000#32
  let main_v45 : FVec F S128x512 .f32 := broadcastInDim S128x512 ![] bcast_S_S128x512 main_cst_16
  let main_v46 : IVec S128x512 1 := cmpf .olt main_v44 main_v45
  let main_c_17 : IVec S_ 1 := constantI S_ 1 1#1
  let main_v47 : IVec S_ 1 := (fun x v => Host.reduce IntOp.andi x v reducesTo_S128x512_S_d0_1 h_S_) main_v46 main_c_17
  let main_v48 : IVec S_ 1 := andi main_v43 main_v47
  main_v48

def fn_part1 {F : FTy → Type} [FloatOps F] (main_arg4 : FVec F S128x512 .f32) (main_arg5 : FVec F S128 .f32) (main_arg6 : FVec F S128x512 .f32) (main_arg7 : FVec F S128 .f32) (main_arg8 : FVec F S512x128 .f32) (main_arg9 : FVec F S128x512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x512 .f32 := Host.absf main_arg6
  let main_cst_10 : FVec F S_ .f32 := constant S_ .f32 0x7F800000#32
  let main_v30 : FVec F S128x512 .f32 := broadcastInDim S128x512 ![] bcast_S_S128x512 main_cst_10
  let main_v31 : IVec S128x512 1 := cmpf .olt main_v29 main_v30
  let main_c_11 : IVec S_ 1 := constantI S_ 1 1#1
  let main_v32 : IVec S_ 1 := (fun x v => Host.reduce IntOp.andi x v reducesTo_S128x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S2x512x512 .f32) (main_arg1 : FVec F S2x512x512 .f32) (main_arg2 : FVec F S128x512 .f32) (main_arg3 : FVec F S128 .f32) (main_arg4 : FVec F S128x512 .f32) (main_arg5 : FVec F S128 .f32) (main_arg6 : FVec F S128x512 .f32) (main_arg7 : FVec F S128 .f32) (main_arg8 : FVec F S512x128 .f32) (main_arg9 : FVec F S128x512 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S2x512x512 .f32 := Host.absf main_arg1
  let main_cst_0 : FVec F S_ .f32 := constant S_ .f32 0x7F800000#32
  let main_v5 : FVec F S2x512x512 .f32 := broadcastInDim S2x512x512 ![] bcast_S_S2x512x512 main_cst_0
  let main_v6 : IVec S2x512x512 1 := cmpf .olt main_v4 main_v5
  let main_c_1 : IVec S_ 1 := constantI S_ 1 1#1
  let main_v7 : IVec S_ 1 := (fun x v => Host.reduce IntOp.andi x v reducesTo_S2x512x512_S_d0_1_2 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S2x512x512 : Shape := ⟨3, ![2, 512, 512]⟩
abbrev S128x512 : Shape := ⟨2, ![128, 512]⟩
abbrev S128 : Shape := ⟨1, ![128]⟩
abbrev S512x128 : Shape := ⟨2, ![512, 128]⟩
abbrev S512x256 : Shape := ⟨2, ![512, 256]⟩
abbrev S1x128 : Shape := ⟨2, ![1, 128]⟩
abbrev S256 : Shape := ⟨1, ![256]⟩
abbrev S1x256 : Shape := ⟨2, ![1, 256]⟩
abbrev S512x512 : Shape := ⟨2, ![512, 512]⟩
abbrev S2x512x128 : Shape := ⟨3, ![2, 512, 128]⟩
abbrev S1x512x512 : Shape := ⟨3, ![1, 512, 512]⟩
abbrev S1x512x128 : Shape := ⟨3, ![1, 512, 128]⟩

abbrev nBuf : Space → Nat
  | .hbm => 19
  | .vmem => 14
  | .smem => 0
  | _ => 0

abbrev bufTy : (tb : Table) → Fin (tcTables nBuf tb) → BufTy
  | .hbm, ⟨0, _⟩ => ⟨S2x512x512, .f32⟩
  | .hbm, ⟨1, _⟩ => ⟨S2x512x512, .f32⟩
  | .hbm, ⟨2, _⟩ => ⟨S128x512, .f32⟩
  | .hbm, ⟨3, _⟩ => ⟨S128, .f32⟩
  | .hbm, ⟨4, _⟩ => ⟨S128x512, .f32⟩
  | .hbm, ⟨5, _⟩ => ⟨S128, .f32⟩
  | .hbm, ⟨6, _⟩ => ⟨S128x512, .f32⟩
  | .hbm, ⟨7, _⟩ => ⟨S128, .f32⟩
  | .hbm, ⟨8, _⟩ => ⟨S512x128, .f32⟩
  | .hbm, ⟨9, _⟩ => ⟨S128x512, .f32⟩
  | .hbm, ⟨10, _⟩ => ⟨S512x128, .f32⟩
  | .hbm, ⟨11, _⟩ => ⟨S512x128, .f32⟩
  | .hbm, ⟨12, _⟩ => ⟨S512x128, .f32⟩
  | .hbm, ⟨13, _⟩ => ⟨S512x256, .f32⟩
  | .hbm, ⟨14, _⟩ => ⟨S1x128, .f32⟩
  | .hbm, ⟨15, _⟩ => ⟨S256, .f32⟩
  | .hbm, ⟨16, _⟩ => ⟨S1x256, .f32⟩
  | .hbm, ⟨17, _⟩ => ⟨S512x512, .bf16⟩
  | .hbm, ⟨18, _⟩ => ⟨S2x512x128, .f32⟩
  | .local _ .vmem, ⟨0, _⟩ => ⟨S512x128, .f32⟩
  | .local _ .vmem, ⟨1, _⟩ => ⟨S128x512, .f32⟩
  | .local _ .vmem, ⟨2, _⟩ => ⟨S512x512, .bf16⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S512x128, .f32⟩
  | .local _ .vmem, ⟨8, _⟩ => ⟨S1x128, .f32⟩
  | .local _ .vmem, ⟨9, _⟩ => ⟨S512x256, .f32⟩
  | .local _ .vmem, ⟨10, _⟩ => ⟨S1x256, .f32⟩
  | .local _ .vmem, ⟨11, _⟩ => ⟨S512x512, .bf16⟩
  | .local _ .vmem, ⟨12, _⟩ => ⟨S1x512x128, .f32⟩
  | .local _ .vmem, ⟨13, _⟩ => ⟨S1x512x128, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg7_1 : Ref sig .tc := ⟨.vmem, 13, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem7_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S128x512_S512x128_1_0 : S128x512.Transposes [1, 0] S512x128
  concatenates_S512x128_S512x128_S512x256_d1 : Shape.Concatenates [S512x128, S512x128] S512x256 1
  shapeCasts_S128_S1x128 : S128.ShapeCasts S1x128
  concatenates_S128_S128_S256_d0 : Shape.Concatenates [S128, S128] S256 0
  shapeCasts_S256_S1x256 : S256.ShapeCasts S1x256
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S512x512_S512x512 : S512x512.ShapeCasts S512x512
  broadcasts_S1x128_S512x128 : S1x128.Broadcasts S512x128
  broadcasts_S1x256_S512x256 : S1x256.Broadcasts S512x256
  slices_S512x256_o0_0_S512x128 : S512x256.Slices ![0, 0] S512x128
  slices_S512x256_o0_128_S512x128 : S512x256.Slices ![0, 128] S512x128
  reduces_S512x128_S128 : S512x128.Reduces [0] S128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S512x128_S128x512_S512x512_1_0_0_1_n_n_wf : DotDims.WF S512x128 S128x512 S512x512 [1] [0] [0] [1] [] []
  dot_S512x512_S512x128_S512x128_1_0_0_1_n_n_wf : DotDims.WF S512x512 S512x128 S512x128 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S2x512x512.size a
  hwx1_0 : ∀ i : grid1.Coords, EltTy.bits .f32 = 32 ∨ (Rect.block (s := S2x512x512) S1x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S2x512x512.size a
  hwx1_1 : ∀ i : grid1.Coords, EltTy.bits .f32 = 32 ∨ (Rect.block (s := S2x512x512) S1x512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S512x128.size a
  hwx1_2 : ∀ i : grid1.Coords, EltTy.bits .f32 = 32 ∨ (Rect.block (s := S512x128) S512x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S512x256.size a
  hwx1_4 : ∀ i : grid1.Coords, EltTy.bits .f32 = 32 ∨ (Rect.block (s := S512x256) S512x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S512x512.size a
  hwx1_6 : ∀ i : grid1.Coords, EltTy.bits .bf16 = 32 ∨ (Rect.block (s := S512x512) S512x512.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x128.size a ≤ S2x512x128.size a
  hwx1_7 : ∀ i : grid1.Coords, EltTy.bits .f32 = 32 ∨ (Rect.block (s := S2x512x128) S1x512x128.size (cc1_transform_7 i) (hinb1_7 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg8) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S512x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S512x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S1x512x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2x512x512 : Shape := ⟨3, ![2, 512, 512]⟩
abbrev S128x512 : Shape := ⟨2, ![128, 512]⟩
abbrev S128 : Shape := ⟨1, ![128]⟩
abbrev S512x128 : Shape := ⟨2, ![512, 128]⟩
abbrev S2x512x128 : Shape := ⟨3, ![2, 512, 128]⟩
abbrev S1x1x128 : Shape := ⟨3, ![1, 1, 128]⟩
abbrev S512x512 : Shape := ⟨2, ![512, 512]⟩
abbrev S2x1x512x128 : Shape := ⟨4, ![2, 1, 512, 128]⟩
abbrev S1x512x512x1 : Shape := ⟨4, ![1, 512, 512, 1]⟩
abbrev S2x512x512x128 : Shape := ⟨4, ![2, 512, 512, 128]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2x512x512, .f32⟩
  | .hbm, ⟨2, _⟩ => ⟨S128x512, .f32⟩
  | .hbm, ⟨3, _⟩ => ⟨S128, .f32⟩
  | .hbm, ⟨4, _⟩ => ⟨S128x512, .f32⟩
  | .hbm, ⟨5, _⟩ => ⟨S128, .f32⟩
  | .hbm, ⟨6, _⟩ => ⟨S128x512, .f32⟩
  | .hbm, ⟨7, _⟩ => ⟨S128, .f32⟩
  | .hbm, ⟨8, _⟩ => ⟨S512x128, .f32⟩
  | .hbm, ⟨9, _⟩ => ⟨S128x512, .f32⟩
  | .hbm, ⟨10, _⟩ => ⟨S2x512x128, .f32⟩
  | .hbm, ⟨11, _⟩ => ⟨S1x1x128, .f32⟩
  | .hbm, ⟨12, _⟩ => ⟨S2x512x128, .f32⟩
  | .hbm, ⟨13, _⟩ => ⟨S2x512x128, .f32⟩
  | .hbm, ⟨14, _⟩ => ⟨S2x512x128, .f32⟩
  | .hbm, ⟨15, _⟩ => ⟨S1x1x128, .f32⟩
  | .hbm, ⟨16, _⟩ => ⟨S2x512x128, .f32⟩
  | .hbm, ⟨17, _⟩ => ⟨S2x512x128, .f32⟩
  | .hbm, ⟨18, _⟩ => ⟨S2x512x128, .f32⟩
  | .hbm, ⟨19, _⟩ => ⟨S1x1x128, .f32⟩
  | .hbm, ⟨20, _⟩ => ⟨S2x512x128, .f32⟩
  | .hbm, ⟨21, _⟩ => ⟨S2x512x128, .f32⟩
  | .hbm, ⟨22, _⟩ => ⟨S512x512, .f32⟩
  | .hbm, ⟨23, _⟩ => ⟨S2x1x512x128, .f32⟩
  | .hbm, ⟨24, _⟩ => ⟨S1x512x512x1, .f32⟩
  | .hbm, ⟨25, _⟩ => ⟨S2x512x512x128, .f32⟩
  | .hbm, ⟨26, _⟩ => ⟨S2x512x512x128, .f32⟩
  | .hbm, ⟨27, _⟩ => ⟨S2x512x512x128, .f32⟩
  | .hbm, ⟨28, _⟩ => ⟨S2x512x512x128, .f32⟩
  | .hbm, ⟨29, _⟩ => ⟨S2x1x512x128, .f32⟩
  | .hbm, ⟨30, _⟩ => ⟨S2x512x512x128, .f32⟩
  | .hbm, ⟨31, _⟩ => ⟨S2x512x512x128, .f32⟩
  | .hbm, ⟨32, _⟩ => ⟨S_, .f32⟩
  | .hbm, ⟨33, _⟩ => ⟨S2x512x128, .f32⟩
  | .hbm, ⟨34, _⟩ => ⟨S_, .f32⟩
  | .hbm, ⟨35, _⟩ => ⟨S2x512x128, .f32⟩
  | .hbm, ⟨36, _⟩ => ⟨S2x512x128, .f32⟩
  | .hbm, ⟨37, _⟩ => ⟨S2x512x128, .f32⟩
  | .hbm, ⟨38, _⟩ => ⟨S_, .f32⟩
  | .hbm, ⟨39, _⟩ => ⟨S2x512x128, .f32⟩
  | .hbm, ⟨40, _⟩ => ⟨S2x512x128, .f32⟩
  | .hbm, ⟨41, _⟩ => ⟨S_, .f32⟩
  | .hbm, ⟨42, _⟩ => ⟨S2x512x128, .f32⟩
  | .hbm, ⟨43, _⟩ => ⟨S2x512x128, .f32⟩
  | .hbm, ⟨44, _⟩ => ⟨S2x512x128, .f32⟩
  | .hbm, ⟨45, _⟩ => ⟨S2x512x128, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S2x512x128_0_1_2 : S1x1x128.BroadcastsInDim S2x512x128 (![0, 1, 2] : Fin 3 → Fin S2x512x128.rank)
  bcast_S2x512x128_S2x1x512x128_0_2_3 : S2x512x128.BroadcastsInDim S2x1x512x128 (![0, 2, 3] : Fin 3 → Fin S2x1x512x128.rank)
  bcast_S512x512_S1x512x512x1_1_2 : S512x512.BroadcastsInDim S1x512x512x1 (![1, 2] : Fin 2 → Fin S1x512x512x1.rank)
  bcast_S2x1x512x128_S2x512x512x128_0_1_2_3 : S2x1x512x128.BroadcastsInDim S2x512x512x128 (![0, 1, 2, 3] : Fin 4 → Fin S2x512x512x128.rank)
  bcast_S1x512x512x1_S2x512x512x128_0_1_2_3 : S1x512x512x1.BroadcastsInDim S2x512x512x128 (![0, 1, 2, 3] : Fin 4 → Fin S2x512x512x128.rank)
  reducesTo_S2x512x512x128_S2x512x128_d2 : S2x512x512x128.ReducesTo [2] S2x512x128
  h_S_ : 0 < S_.numel
  bcast_S_S2x512x128 : S_.BroadcastsInDim S2x512x128 (![] : Fin 0 → Fin S2x512x128.rank)
  dot_S2x512x512_S128x512_S2x512x128_2_1_01_0_n_n_wf : DotDims.WF S2x512x512 S128x512 S2x512x128 [2] [1] [0, 1] [0] [] []
  dot_S512x128_S128x512_S512x512_1_0_0_1_n_n_wf : DotDims.WF S512x128 S128x512 S512x512 [1] [0] [0] [1] [] []

variable [Facts₀]

def dot_S2x512x512_S128x512_S2x512x128_2_1_01_0_n_n : DotDims S2x512x512 S128x512 S2x512x128 where
  lhsContracting := [2]
  rhsContracting := [1]
  lhsNonContracting := [0, 1]
  rhsNonContracting := [0]
  lhsBatch := []
  rhsBatch := []
  wf := dot_S2x512x512_S128x512_S2x512x128_2_1_01_0_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

class Facts : Prop extends Facts₀ where

variable [Facts]
-- ==== Proof.KRun.lean ====
/-
  The idealized kernel's run, with its result.

  @main is a stretch of host operations (three transposes, two concatenations, two reshapes) followed by two kernel
  regions: the first writes `exp (U · V)` into an intermediate array, the second reads it beside the projections'
  operands and writes the result.  Every weakly fair execution terminates without a fault, and the final memory holds, at
  the result buffer, what the last region's write-backs leave there (`W3`, the buffer contents folded through the three
  segments from the launch memory), and the ten argument arrays as launched.
-/
import proofs.«112643_j214748365538_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main over its three segments: the last thread state holds every unscoped buffer at `W3`; read against
    the final state, the result buffer is `W3` there and each argument walks back to the launch memory. -/
theorem run_value : θ_run defs (onTc (τ := τ) (main (F := F))) ⟨m, fun _ => 0, ρ⟩ (fun r => ∀ c : Dev nD,
      r.2.mem ((c.tc : Thread nD τ).loc main_v8) = W3 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v8 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩)

end Cert.KernelIdeal.Whole

end
-- ==== Proof.Spec.lean ====
/-
  The two values of the attention-with-positional-bias kernel, as functions of the ten argument arrays, index by index
  over the extended reals.

  Both programs project the query rows and the key/value rows (`proj`: a row of `x` against a row of the weight
  matrix, plus the bias), form the low-rank positional bias `lowRank U V t s = ∑ j, U t j · V j s`, and return
  `σ(qh) · num / den`.  The reference weighs key row `s` by `exp (k s + w t s)`.  The kernel factors that weight as
  `exp (w t s) · exp (k s - M)`, with `M` the running maximum of column `h` of the keys (`colMax`, seeded with -∞): the
  common factor `exp M` appears in both the numerator and the denominator.
-/
import Idealize.ShloMosaic.PureOps.Ideal
import Idealize.ShloMosaic.PureOps.Ideal.Laws
import Idealize.ShloMosaic.Lib.ValueIdx

noncomputable section

namespace Cert.AftSpec

open Idealize.ShloMosaic Idealize.ShloMosaic.ValueIdx

/-- A batch of 512 rows of 512 features: the queries, and the key/value source. -/
abbrev Rows := (⟨3, ![2, 512, 512]⟩ : Shape).Idx → EReal
/-- A 128 × 512 matrix: a projection's weights (hidden × feature), or the right factor of the positional bias. -/
abbrev Mat128x512 := (⟨2, ![128, 512]⟩ : Shape).Idx → EReal
/-- A 512 × 128 matrix: the left factor of the positional bias. -/
abbrev Mat512x128 := (⟨2, ![512, 128]⟩ : Shape).Idx → EReal
/-- A vector of 128 hidden units: a projection's bias. -/
abbrev Vec128 := (⟨1, ![128]⟩ : Shape).Idx → EReal
/-- The result: batch × query row × hidden unit. -/
abbrev Out := (⟨3, ![2, 512, 128]⟩ : Shape).Idx → EReal

/-- Row `s` of batch `b` of `x`, projected on hidden unit `h`: `∑ d, x b s d · W h d + β h`. -/
def proj (x : Rows) (W : Mat128x512) (β : Vec128) (b : Fin 2) (s : Fin 512) (h : Fin 128) : EReal :=
  (∑ d : Fin 512, x (ix3 b s d) * W (ix2 h d)) + β (ix1 h)

/-- The low-rank positional bias between query row `t` and key row `s`: `∑ j, U t j · V j s`. -/
def lowRank (U : Mat512x128) (V : Mat128x512) (t s : Fin 512) : EReal :=
  ∑ j : Fin 128, U (ix2 t j) * V (ix2 j s)

/-- The maximum of 512 values, folded from -∞. -/
def colMax (k : Fin 512 → EReal) : EReal :=
  (Finset.univ : Finset (Fin 512)).fold max (Ideal.ofBits .f32 0xFF800000#32) k

/-- The kernel's value at batch `b`, query row `t`, hidden unit `h`: the weights factored as
    `exp (w t s) · exp (k s - M)`, `M` the column maximum of the keys. -/
def kerOut (q kv : Rows) (Wq : Mat128x512) (bq : Vec128) (Wk : Mat128x512) (bk : Vec128) (Wv : Mat128x512) (bv : Vec128)
    (U : Mat512x128) (V : Mat128x512) (b : Fin 2) (t : Fin 512) (h : Fin 128) : EReal :=
  Ideal.logistic (proj q Wq bq b t h) *
    Ideal.div
      (∑ s : Fin 512, Ideal.exp (lowRank U V t s) *
        (Ideal.exp (proj kv Wk bk b s h - colMax (fun s' => proj kv Wk bk b s' h)) * proj kv Wv bv b s h))
      (∑ s : Fin 512, Ideal.exp (lowRank U V t s) *
        Ideal.exp (proj kv Wk bk b s h - colMax (fun s' => proj kv Wk bk b s' h)))

/-- The reference's value at the same index: the weights `exp (k s + w t s)`, the sums started from the zero word,
    the logistic function spelled `1 / (1 + exp (-x))` with the one word. -/
def refOut (q kv : Rows) (Wq : Mat128x512) (bq : Vec128) (Wk : Mat128x512) (bk : Vec128) (Wv : Mat128x512) (bv : Vec128)
    (U : Mat512x128) (V : Mat128x512) (b : Fin 2) (t : Fin 512) (h : Fin 128) : EReal :=
  Ideal.div (Ideal.ofBits .f32 0x3F800000#32)
      (Ideal.ofBits .f32 0x3F800000#32 + Ideal.exp (-(proj q Wq bq b t h))) *
    Ideal.div
      (Ideal.ofBits .f32 0x00000000#32 +
        ∑ s : Fin 512, Ideal.exp (proj kv Wk bk b s h + lowRank U V t s) * proj kv Wv bv b s h)
      (Ideal.ofBits .f32 0x00000000#32 +
        ∑ s : Fin 512, Ideal.exp (proj kv Wk bk b s h + lowRank U V t s))

/-- Every entry of an array is a real number (neither infinity). -/
def IsReal {ι : Type} (f : ι → EReal) : Prop := ∀ i, ∃ r : ℝ, f i = (r : EReal)

end Cert.AftSpec

end
-- ==== Proof.Cols.lean ====
/-
  The fused key/value matrix has 256 columns: hidden unit `h`'s key column is column `h`, its value column is column
  `128 + h`.
-/

namespace Cert.AftSpec

/-- The key column of hidden unit `h` among the 256 fused columns. -/
def keyCol (h : Fin 128) : Fin 256 := ⟨h.val, Nat.lt_trans h.isLt (by decide)⟩
/-- The value column of hidden unit `h` among the 256 fused columns. -/
def valCol (h : Fin 128) : Fin 256 := ⟨128 + h.val, by have := h.isLt; omega⟩

theorem keyCol_val (h : Fin 128) : (keyCol h).val = h.val := rfl
theorem valCol_val (h : Fin 128) : (valCol h).val = 128 + h.val := rfl

end Cert.AftSpec
-- ==== Proof.HostSide.lean ====
/-
  What the kernel's two regions find in the buffers the host prepared.

  Before its first region the program transposes the three 128 × 512 weight matrices to 512 × 128, sets the transposed
  key and value weights side by side in one 512 × 256 matrix (hidden unit `h`'s key column is column `h`, its value
  column is column `128 + h`), writes the query bias as a 1 × 128 row, and the key and value biases, one after the
  other, as a 1 × 256 row.  The first region writes none of these buffers, so the second finds them as the host left
  them; and no host operation writes an argument.  Read at an index, each prepared buffer is an entry of an argument:
  the transposed weights at `(d, h)` are the weights at `(h, d)`, the fused matrix at a key or value column is the
  corresponding weight, and the bias rows at `(0, ·)` are the bias vectors.
-/
import proofs.«112643_j214748365538_2_alg».proof.Proof.Gen.KernelIdeal.Frame
import proofs.«112643_j214748365538_2_alg».proof.Proof.Spec
import proofs.«112643_j214748365538_2_alg».proof.Proof.Cols
import Idealize.ShloMosaic.Lib.StableHlo.Run
import Idealize.ShloMosaic.Lib.ValueLayout
import Idealize.ShloMosaic.Lib.Pipeline.Value

noncomputable section

namespace Cert.KernelIdeal.Whole

open Cert.KernelIdeal Cert.KernelIdeal.Gen Cert.AftSpec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The arguments are as launched -/

/-- The queries, at the second region's entry. -/
theorem entry_q : V2 m ρ c main_arg0 = (m ((c : Thread nD τ).loc main_arg0)) :=
  (W2_of_ne m ρ c main_arg0 (by decide)).trans (by
    dsimp only [Gen.W1, Gen.hostOps0]
    after_results <;> rfl)

/-- The key/value source, at the second region's entry. -/
theorem entry_kv : V2 m ρ c main_arg1 = (m ((c : Thread nD τ).loc main_arg1)) :=
  (W2_of_ne m ρ c main_arg1 (by decide)).trans (by
    dsimp only [Gen.W1, Gen.hostOps0]
    after_results <;> rfl)

/-- The left factor of the positional bias, at the first region's entry. -/
theorem entry_u : V1 m ρ c main_arg8 = (m ((c : Thread nD τ).loc main_arg8)) := by
  dsimp only [Gen.V1, Gen.W1, Gen.hostOps0]
  after_results <;> rfl

/-- The right factor of the positional bias, at the first region's entry. -/
theorem entry_v : V1 m ρ c main_arg9 = (m ((c : Thread nD τ).loc main_arg9)) := by
  dsimp only [Gen.V1, Gen.W1, Gen.hostOps0]
  after_results <;> rfl

/-! ## The prepared buffers, as the host operations' terms -/

/-- The query weights, transposed. -/
theorem host_wq :
    (V2 m ρ c main_v0 : S512x128.Idx → EReal) = transpose S512x128 [1, 0] (m ((c : Thread nD τ).loc main_arg2)) transposes_S128x512_S512x128_1_0 :=
  (W2_of_ne m ρ c main_v0 (by decide)).trans (by
    dsimp only [Gen.W1, Gen.hostOps0]
    after_results <;> rfl)

/-- The transposed key weights and the transposed value weights, side by side. -/
theorem host_wkv :
    (V2 m ρ c main_v3 : S512x256.Idx → EReal)
      = concatenate S512x256 1
          [⟨S512x128, transpose S512x128 [1, 0] (m ((c : Thread nD τ).loc main_arg4)) transposes_S128x512_S512x128_1_0⟩,
           ⟨S512x128, transpose S512x128 [1, 0] (m ((c : Thread nD τ).loc main_arg6)) transposes_S128x512_S512x128_1_0⟩]
          concatenates_S512x128_S512x128_S512x256_d1 :=
  (W2_of_ne m ρ c main_v3 (by decide)).trans (by
    dsimp only [Gen.W1, Gen.hostOps0]
    after_results <;> rfl)

/-- The query bias, as a row. -/
theorem host_qb :
    (V2 m ρ c main_v4 : S1x128.Idx → EReal) = shapeCast S1x128 (m ((c : Thread nD τ).loc main_arg3)) shapeCasts_S128_S1x128 :=
  (W2_of_ne m ρ c main_v4 (by decide)).trans (by
    dsimp only [Gen.W1, Gen.hostOps0]
    after_results <;> rfl)

/-- The key bias followed by the value bias, as a row. -/
theorem host_bkv :
    (V2 m ρ c main_v6 : S1x256.Idx → EReal)
      = shapeCast S1x256 (concatenate S256 0 [⟨S128, (m ((c : Thread nD τ).loc main_arg5))⟩, ⟨S128, (m ((c : Thread nD τ).loc main_arg7))⟩]
          concatenates_S128_S128_S256_d0) shapeCasts_S256_S1x256 :=
  (W2_of_ne m ρ c main_v6 (by decide)).trans (by
    dsimp only [Gen.W1, Gen.hostOps0]
    after_results <;> rfl)

/-! ## The prepared buffers, at an index -/

/-- The transposed query weights at `(d, h)` are the query weights at `(h, d)`. -/
theorem entry_wq_at (d : Fin 512) (h : Fin 128) :
    (V2 m ρ c main_v0 : S512x128.Idx → EReal) (ix2 d h)
      = ((m ((c : Thread nD τ).loc main_arg2)) : S128x512.Idx → EReal) (ix2 h d) := by
  rw [host_wq]
  exact transpose_ix2_apply _ _ d h

/-- The query bias row at `(0, h)` is the query bias at `h`. -/
theorem entry_qb_at (h : Fin 128) :
    (V2 m ρ c main_v4 : S1x128.Idx → EReal) (ix2 (0 : Fin 1) h)
      = ((m ((c : Thread nD τ).loc main_arg3)) : S128.Idx → EReal) (ix1 h) := by
  rw [host_qb]
  exact shapeCast_a_1a_apply _ _ 0 h

/-- The fused matrix at `(d, h)`'s key column is the key weight at `(h, d)`: the column falls in the first piece. -/
theorem entry_wk_at (d : Fin 512) (h : Fin 128) :
    (V2 m ρ c main_v3 : S512x256.Idx → EReal) (ix2 d (keyCol h))
      = ((m ((c : Thread nD τ).loc main_arg4)) : S128x512.Idx → EReal) (ix2 h d) := by
  rw [host_wkv,
    concatenate_pair_apply_left (t := S512x256) (s₁ := S512x128) (s₂ := S512x128) _ _ _ _ (ix2 d (keyCol h)) rfl (ix2 d h)
      (fun b => match b with | ⟨0, _⟩ => rfl | ⟨1, _⟩ => rfl)]
  exact transpose_ix2_apply _ _ d h

/-- The fused matrix at `(d, h)`'s value column is the value weight at `(h, d)`: the column falls in the second
    piece, 128 columns in. -/
theorem entry_wv_at (d : Fin 512) (h : Fin 128) :
    (V2 m ρ c main_v3 : S512x256.Idx → EReal) (ix2 d (valCol h))
      = ((m ((c : Thread nD τ).loc main_arg6)) : S128x512.Idx → EReal) (ix2 h d) := by
  rw [host_wkv,
    concatenate_pair_apply_right (t := S512x256) (s₁ := S512x128) (s₂ := S512x128) _ _ _ _ (ix2 d (valCol h)) rfl rfl (ix2 d h)
      (fun b hb => match b, hb with | ⟨0, _⟩, _ => rfl | ⟨1, _⟩, hb => absurd rfl hb)
      (by show h.val + 128 = 128 + h.val; exact Nat.add_comm _ _)]
  exact transpose_ix2_apply _ _ d h

/-- The fused bias row at `(0, h)`'s key column is the key bias at `h`. -/
theorem entry_bk_at (h : Fin 128) :
    (V2 m ρ c main_v6 : S1x256.Idx → EReal) (ix2 (0 : Fin 1) (keyCol h))
      = ((m ((c : Thread nD τ).loc main_arg5)) : S128.Idx → EReal) (ix1 h) := by
  rw [host_bkv, shapeCast_a_1a_apply _ _ 0 (keyCol h)]
  exact concatenate_pair_apply_left (t := S256) (s₁ := S128) (s₂ := S128) _ _ _ _ (ix1 (keyCol h)) rfl (ix1 h)
    (fun b => match b with | ⟨0, _⟩ => rfl)

/-- The fused bias row at `(0, h)`'s value column is the value bias at `h`. -/
theorem entry_bv_at (h : Fin 128) :
    (V2 m ρ c main_v6 : S1x256.Idx → EReal) (ix2 (0 : Fin 1) (valCol h))
      = ((m ((c : Thread nD τ).loc main_arg7)) : S128.Idx → EReal) (ix1 h) := by
  rw [host_bkv, shapeCast_a_1a_apply _ _ 0 (valCol h)]
  exact concatenate_pair_apply_right (t := S256) (s₁ := S128) (s₂ := S128) _ _ _ _ (ix1 (valCol h)) rfl rfl (ix1 h)
    (fun b hb => match b, hb with | ⟨0, _⟩, hb => absurd rfl hb)
    (by show h.val + 128 = 128 + h.val; exact Nat.add_comm _ _)

end Cert.KernelIdeal.Whole

end
-- ==== Proof.KDot.lean ====
/-
  The kernel's three matrix products as plain sums.

  Each `tpu.matmul` of the kernel contracts the last axis of its left operand with the first axis of its right operand,
  with no batch axis.  Read at the extended reals, entry `(p, q)` of the product is `∑ k, lhs p k · rhs k q`: the
  contraction's index type has one axis, which is carried to `Fin K`, and the two operand indices the contraction
  record computes are the coordinates `(p, k)` and `(k, q)`.
-/
import proofs.«112643_j214748365538_2_alg».proof.KernelIdeal
import proofs.«112643_j214748365538_2_alg».proof.Proof.Gen.KernelIdeal
import Idealize.ShloMosaic.Lib.ValueIdx
import Idealize.ShloMosaic.PureOps.Ideal.Laws

noncomputable section

namespace Cert.KernelIdeal.Whole

open Cert.KernelIdeal Idealize.ShloMosaic Idealize.ShloMosaic.ValueIdx

/-! ## The positional bias's product: a 512 × 128 matrix against a 128 × 512 one. -/

theorem bias_lhs_row (p : Fin 512) (q : Fin 512) (c : dot_S512x128_S128x512_S512x512_1_0_0_1_n_n.contr.Idx) :
    (dot_S512x128_S128x512_S512x512_1_0_0_1_n_n.lhsIdx (ix2 p q) c 0).val = p.val := by
  unfold DotDims.lhsIdx
  rw [dif_neg (show ¬(0 : Fin 2) ∈ dot_S512x128_S128x512_S512x512_1_0_0_1_n_n.lhsBatch by decide), dif_pos (show (0 : Fin 2) ∈ dot_S512x128_S128x512_S512x512_1_0_0_1_n_n.lhsNonContracting by decide)]
  rfl
theorem bias_lhs_col (p : Fin 512) (q : Fin 512) (c : dot_S512x128_S128x512_S512x512_1_0_0_1_n_n.contr.Idx) :
    (dot_S512x128_S128x512_S512x512_1_0_0_1_n_n.lhsIdx (ix2 p q) c 1).val = (c ⟨0, by decide⟩).val :=
  dot_S512x128_S128x512_S512x512_1_0_0_1_n_n.lhsIdx_val_of_single rfl (ix2 p q) c
theorem bias_rhs_row (p : Fin 512) (q : Fin 512) (c : dot_S512x128_S128x512_S512x512_1_0_0_1_n_n.contr.Idx) :
    (dot_S512x128_S128x512_S512x512_1_0_0_1_n_n.rhsIdx (ix2 p q) c 0).val = (c ⟨0, by decide⟩).val :=
  dot_S512x128_S128x512_S512x512_1_0_0_1_n_n.rhsIdx_val_of_single rfl (ix2 p q) c
theorem bias_rhs_col (p : Fin 512) (q : Fin 512) (c : dot_S512x128_S128x512_S512x512_1_0_0_1_n_n.contr.Idx) :
    (dot_S512x128_S128x512_S512x512_1_0_0_1_n_n.rhsIdx (ix2 p q) c 1).val = q.val := by
  unfold DotDims.rhsIdx
  rw [dif_neg (show ¬(1 : Fin 2) ∈ dot_S512x128_S128x512_S512x512_1_0_0_1_n_n.rhsBatch by decide), dif_pos (show (1 : Fin 2) ∈ dot_S512x128_S128x512_S512x512_1_0_0_1_n_n.rhsNonContracting by decide)]
  rfl

/-- Entry `(p, q)` of the product is `∑ k, lhs p k · rhs k q`. -/
theorem bias_sum (lhs : (⟨2, ![512, 128]⟩ : Shape).Idx → EReal) (rhs : (⟨2, ![128, 512]⟩ : Shape).Idx → EReal) (p : Fin 512) (q : Fin 512) :
    ∑ c : dot_S512x128_S128x512_S512x512_1_0_0_1_n_n.contr.Idx, lhs (dot_S512x128_S128x512_S512x512_1_0_0_1_n_n.lhsIdx (ix2 p q) c) * rhs (dot_S512x128_S128x512_S512x512_1_0_0_1_n_n.rhsIdx (ix2 p q) c)
      = ∑ k : Fin 128, lhs (ix2 p k) * rhs (ix2 k q) := by
  rw [← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 p q) ((contrEquiv1 dot_S512x128_S128x512_S512x512_1_0_0_1_n_n 128 rfl rfl).symm k) = ix2 p k :=
    funext fun a => Fin.ext (by
      match a with
      | ⟨0, _⟩ => exact bias_lhs_row p q _
      | ⟨1, _⟩ => exact (bias_lhs_col p q _).trans hk)
  have er : dot_S512x128_S128x512_S512x512_1_0_0_1_n_n.rhsIdx (ix2 p q) ((contrEquiv1 dot_S512x128_S128x512_S512x512_1_0_0_1_n_n 128 rfl rfl).symm k) = ix2 k q :=
    funext fun a => Fin.ext (by
      match a with
      | ⟨0, _⟩ => exact (bias_rhs_row p q _).trans hk
      | ⟨1, _⟩ => exact bias_rhs_col p q _)
  rw [el, er]

/-! ## The query projection's product: 512 rows of 512 features against a 512 × 128 matrix. -/

theorem query_lhs_row (p : Fin 512) (q : Fin 128) (c : dot_S512x512_S512x128_S512x128_1_0_0_1_n_n.contr.Idx) :
    (dot_S512x512_S512x128_S512x128_1_0_0_1_n_n.lhsIdx (ix2 p q) c 0).val = p.val := by
  unfold DotDims.lhsIdx
  rw [dif_neg (show ¬(0 : Fin 2) ∈ dot_S512x512_S512x128_S512x128_1_0_0_1_n_n.lhsBatch by decide), dif_pos (show (0 : Fin 2) ∈ dot_S512x512_S512x128_S512x128_1_0_0_1_n_n.lhsNonContracting by decide)]
  rfl
theorem query_lhs_col (p : Fin 512) (q : Fin 128) (c : dot_S512x512_S512x128_S512x128_1_0_0_1_n_n.contr.Idx) :
    (dot_S512x512_S512x128_S512x128_1_0_0_1_n_n.lhsIdx (ix2 p q) c 1).val = (c ⟨0, by decide⟩).val :=
  dot_S512x512_S512x128_S512x128_1_0_0_1_n_n.lhsIdx_val_of_single rfl (ix2 p q) c
theorem query_rhs_row (p : Fin 512) (q : Fin 128) (c : dot_S512x512_S512x128_S512x128_1_0_0_1_n_n.contr.Idx) :
    (dot_S512x512_S512x128_S512x128_1_0_0_1_n_n.rhsIdx (ix2 p q) c 0).val = (c ⟨0, by decide⟩).val :=
  dot_S512x512_S512x128_S512x128_1_0_0_1_n_n.rhsIdx_val_of_single rfl (ix2 p q) c
theorem query_rhs_col (p : Fin 512) (q : Fin 128) (c : dot_S512x512_S512x128_S512x128_1_0_0_1_n_n.contr.Idx) :
    (dot_S512x512_S512x128_S512x128_1_0_0_1_n_n.rhsIdx (ix2 p q) c 1).val = q.val := by
  unfold DotDims.rhsIdx
  rw [dif_neg (show ¬(1 : Fin 2) ∈ dot_S512x512_S512x128_S512x128_1_0_0_1_n_n.rhsBatch by decide), dif_pos (show (1 : Fin 2) ∈ dot_S512x512_S512x128_S512x128_1_0_0_1_n_n.rhsNonContracting by decide)]
  rfl

/-- Entry `(p, q)` of the product is `∑ k, lhs p k · rhs k q`. -/
theorem query_sum (lhs : (⟨2, ![512, 512]⟩ : Shape).Idx → EReal) (rhs : (⟨2, ![512, 128]⟩ : Shape).Idx → EReal) (p : Fin 512) (q : Fin 128) :
    ∑ c : dot_S512x512_S512x128_S512x128_1_0_0_1_n_n.contr.Idx, lhs (dot_S512x512_S512x128_S512x128_1_0_0_1_n_n.lhsIdx (ix2 p q) c) * rhs (dot_S512x512_S512x128_S512x128_1_0_0_1_n_n.rhsIdx (ix2 p q) c)
      = ∑ k : Fin 512, lhs (ix2 p k) * rhs (ix2 k q) := by
  rw [← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 p q) ((contrEquiv1 dot_S512x512_S512x128_S512x128_1_0_0_1_n_n 512 rfl rfl).symm k) = ix2 p k :=
    funext fun a => Fin.ext (by
      match a with
      | ⟨0, _⟩ => exact query_lhs_row p q _
      | ⟨1, _⟩ => exact (query_lhs_col p q _).trans hk)
  have er : dot_S512x512_S512x128_S512x128_1_0_0_1_n_n.rhsIdx (ix2 p q) ((contrEquiv1 dot_S512x512_S512x128_S512x128_1_0_0_1_n_n 512 rfl rfl).symm k) = ix2 k q :=
    funext fun a => Fin.ext (by
      match a with
      | ⟨0, _⟩ => exact (query_rhs_row p q _).trans hk
      | ⟨1, _⟩ => exact query_rhs_col p q _)
  rw [el, er]

/-! ## The two 256-column products: the fused key/value projection, and the weighted sums of the fused numerator/denominator columns. -/

theorem wide_lhs_row (p : Fin 512) (q : Fin 256) (c : dot_S512x512_S512x256_S512x256_1_0_0_1_n_n.contr.Idx) :
    (dot_S512x512_S512x256_S512x256_1_0_0_1_n_n.lhsIdx (ix2 p q) c 0).val = p.val := by
  unfold DotDims.lhsIdx
  rw [dif_neg (show ¬(0 : Fin 2) ∈ dot_S512x512_S512x256_S512x256_1_0_0_1_n_n.lhsBatch by decide), dif_pos (show (0 : Fin 2) ∈ dot_S512x512_S512x256_S512x256_1_0_0_1_n_n.lhsNonContracting by decide)]
  rfl
theorem wide_lhs_col (p : Fin 512) (q : Fin 256) (c : dot_S512x512_S512x256_S512x256_1_0_0_1_n_n.contr.Idx) :
    (dot_S512x512_S512x256_S512x256_1_0_0_1_n_n.lhsIdx (ix2 p q) c 1).val = (c ⟨0, by decide⟩).val :=
  dot_S512x512_S512x256_S512x256_1_0_0_1_n_n.lhsIdx_val_of_single rfl (ix2 p q) c
theorem wide_rhs_row (p : Fin 512) (q : Fin 256) (c : dot_S512x512_S512x256_S512x256_1_0_0_1_n_n.contr.Idx) :
    (dot_S512x512_S512x256_S512x256_1_0_0_1_n_n.rhsIdx (ix2 p q) c 0).val = (c ⟨0, by decide⟩).val :=
  dot_S512x512_S512x256_S512x256_1_0_0_1_n_n.rhsIdx_val_of_single rfl (ix2 p q) c
theorem wide_rhs_col (p : Fin 512) (q : Fin 256) (c : dot_S512x512_S512x256_S512x256_1_0_0_1_n_n.contr.Idx) :
    (dot_S512x512_S512x256_S512x256_1_0_0_1_n_n.rhsIdx (ix2 p q) c 1).val = q.val := by
  unfold DotDims.rhsIdx
  rw [dif_neg (show ¬(1 : Fin 2) ∈ dot_S512x512_S512x256_S512x256_1_0_0_1_n_n.rhsBatch by decide), dif_pos (show (1 : Fin 2) ∈ dot_S512x512_S512x256_S512x256_1_0_0_1_n_n.rhsNonContracting by decide)]
  rfl

/-- Entry `(p, q)` of the product is `∑ k, lhs p k · rhs k q`. -/
theorem wide_sum (lhs : (⟨2, ![512, 512]⟩ : Shape).Idx → EReal) (rhs : (⟨2, ![512, 256]⟩ : Shape).Idx → EReal) (p : Fin 512) (q : Fin 256) :
    ∑ c : dot_S512x512_S512x256_S512x256_1_0_0_1_n_n.contr.Idx, lhs (dot_S512x512_S512x256_S512x256_1_0_0_1_n_n.lhsIdx (ix2 p q) c) * rhs (dot_S512x512_S512x256_S512x256_1_0_0_1_n_n.rhsIdx (ix2 p q) c)
      = ∑ k : Fin 512, lhs (ix2 p k) * rhs (ix2 k q) := by
  rw [← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 p q) ((contrEquiv1 dot_S512x512_S512x256_S512x256_1_0_0_1_n_n 512 rfl rfl).symm k) = ix2 p k :=
    funext fun a => Fin.ext (by
      match a with
      | ⟨0, _⟩ => exact wide_lhs_row p q _
      | ⟨1, _⟩ => exact (wide_lhs_col p q _).trans hk)
  have er : dot_S512x512_S512x256_S512x256_1_0_0_1_n_n.rhsIdx (ix2 p q) ((contrEquiv1 dot_S512x512_S512x256_S512x256_1_0_0_1_n_n 512 rfl rfl).symm k) = ix2 k q :=
    funext fun a => Fin.ext (by
      match a with
      | ⟨0, _⟩ => exact (wide_rhs_row p q _).trans hk
      | ⟨1, _⟩ => exact wide_rhs_col p q _)
  rw [el, er]

end Cert.KernelIdeal.Whole

end
-- ==== Proof.KPay.lean ====
/-
  The kernel bodies' arithmetic, read at an index over the extended reals.

  The first region's body stores `exp (x0 · x1)`.  The second region's body computes, from the query block `x0`, the
  transposed query weights `x2` and the bias row `x3`, the gate `σ (x0 · x2 + x3)`; and from the key/value block `x1`,
  the fused transposed key/value weights `x4` (256 columns: keys then values), the fused bias row `x5` and the
  precomputed positional weights `x6`, the quotient of two weighted sums over the key rows.  A change of float format is
  the identity here, a matrix product into a zero accumulator is a plain sum, and the column maximum is a fold of `max`
  from the accumulator's word.
-/
import proofs.«112643_j214748365538_2_alg».proof.Proof.Gen.KernelIdeal.Skeleton
import proofs.«112643_j214748365538_2_alg».proof.Proof.KDot
import Idealize.ShloMosaic.Lib.Pipeline.Value
import Idealize.ShloMosaic.Lib.ValueLayout

noncomputable section

namespace Cert.KernelIdeal.Whole

open Cert.KernelIdeal Cert.KernelIdeal.Gen Idealize.ShloMosaic Idealize.ShloMosaic.ValueIdx

/-! ## The first region: the positional weights -/

/-- Entry `(t, s)` of the stored block is `exp (∑ j, x0 t j · x1 j s)`. -/
theorem bias_pay (x0 : Vec Ideal S512x128 .f32) (x1 : Vec Ideal S128x512 .f32) (t s : Fin 512) :
    k0_pay1 (F := Ideal) x0 x1 (ix2 t s) = Ideal.exp (∑ j : Fin 128, x0 (ix2 t j) * x1 (ix2 j s)) := by
  have e : k0_pay1 (F := Ideal) x0 x1 (ix2 t s)
      = Ideal.exp (FloatOps.matmul (F := Ideal) (φ₁ := .bf16) (φ₂ := .bf16) dot_S512x128_S128x512_S512x512_1_0_0_1_n_n none x0 x1
          (constant (F := Ideal) S512x512 .f32 0x00000000#32) (ix2 t s)) := rfl
  rw [e, Ideal.matmul_constant_zero_apply, bias_sum]

/-! ## The second region: the gate -/

/-- Entry `(t, h)` of the gate is `σ (∑ d, x0 0 t d · x2 d h + x3 0 h)`. -/
theorem gate_pay (x0 : Vec Ideal S1x512x512 .f32) (x2 : Vec Ideal S512x128 .f32) (x3 : Vec Ideal S1x128 .f32)
    (t : Fin 512) (h : Fin 128) :
    k1_pay2 (F := Ideal) x0 x2 x3 (ix2 t h)
      = Ideal.logistic ((∑ d : Fin 512, x0 (ix3 (0 : Fin 1) t d) * x2 (ix2 d h)) + x3 (ix2 (0 : Fin 1) h)) := by
  have e : k1_pay2 (F := Ideal) x0 x2 x3 (ix2 t h)
      = Ideal.logistic (FloatOps.matmul (F := Ideal) (φ₁ := .bf16) (φ₂ := .bf16) dot_S512x512_S512x128_S512x128_1_0_0_1_n_n none
            (shapeCast S512x512 x0 shapeCasts_S1x512x512_S512x512) (shapeCast S512x128 x2 shapeCasts_S512x128_S512x128)
            (constant (F := Ideal) S512x128 .f32 0x00000000#32) (ix2 t h)
          + broadcastTo S512x128 (shapeCast S1x128 x3 shapeCasts_S1x128_S1x128) broadcasts_S1x128_S512x128 (ix2 t h)) := rfl
  rw [e, Ideal.matmul_constant_zero_apply, query_sum, broadcastTo_1b_ab_apply, shapeCast_self, shapeCast_self]
  simp only [shapeCast_1ab_ab_apply]

end Cert.KernelIdeal.Whole

end
-- ==== Proof.Region0.lean ====
/-
  The first region's output, as one function of the two factors of the positional bias.

  The region has one grid point, and each of its three windows is its whole array: the two inputs are the left factor
  `U` (512 × 128) and the right factor `W` (128 × 512), and the body stores `exp (U · W)`.  So the block the one
  point writes back is the whole array `i ↦ exp (∑ j, U (i 0) j · W j (i 1))`, every index of the output lies in
  that block, and the output array after the region is that function.
-/
import proofs.«112643_j214748365538_2_alg».proof.Proof.Gen.KernelIdeal.Frame
import proofs.«112643_j214748365538_2_alg».proof.Proof.KPay
import proofs.«112643_j214748365538_2_alg».proof.Proof.Spec
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The origin of a block, as a constant function. -/
theorem origin_eq : (![0, 0] : Fin 2 → Nat) = fun _ => 0 := funext fun a => by fin_cases a <;> rfl

/-- The positional weights as one function of the two factors: `i ↦ exp (∑ j, U (i 0) j · W j (i 1))`. -/
abbrev biasArr (U : S512x128.Idx → EReal) (W : S128x512.Idx → EReal) : S512x512.Idx → EReal :=
  fun i => Ideal.exp (Cert.AftSpec.lowRank U W (i 0) (i 1))

/-- The printed index maps over the one-point grid: every window's block index is `(0, 0)`. -/
theorem index_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The body's payload on blocks that agree with `U` and `W` entry by entry, at an output index `j` that the
    output's rectangle places at `i`: the positional weight at `i`. -/
theorem pay_at (x0 : Vec Ideal S512x128 .f32) (x1 : Vec Ideal S128x512 .f32) (U : S512x128.Idx → EReal)
    (W : S128x512.Idx → EReal) (h0 : ∀ (p : Fin 512) (k : Fin 128), x0 (ix2 p k) = U (ix2 p k))
    (h1 : ∀ (k : Fin 128) (q : Fin 512), x1 (ix2 k q) = W (ix2 k q)) (j i : S512x512.Idx) (hi : i = j) :
    k0_pay1 (F := Ideal) x0 x1 j = biasArr U W i := by
  subst hi
  obtain ⟨p, q, rfl⟩ : ∃ (p q : Fin 512), i = ix2 p q := ⟨i 0, i 1, eq_ix2 i⟩
  rw [bias_pay]
  show _ = Ideal.exp (∑ k : Fin 128, U (ix2 p k) * W (ix2 k q))
  simp only [h0, h1]

/-- WHAT THE ONE POINT WRITES BACK is its block of the positional weights of the two factors as the region finds
    them. -/
theorem flushed_eq (c : Dev nD) (t : Fin cfg0.N) :
    (dat0 V c).flushed 2 t
      = ((cfg0.win 2).blk t).view.read (Elt Ideal) (biasArr (V c main_arg8) (V c main_arg9)) := by
  show (cfg0.win 2).cut (grid0.coords t) ((dat0 V c).after 2 t) = _
  rw [after0_2]
  unfold out0_2
  rw [View.canon_unit_zero origin_eq]
  simp only [View.ld_unit_zero (S := S512x128) origin_eq, View.ld_unit_zero (S := S128x512) origin_eq]
  obtain ⟨e00, e01, e10, e11, e20, e21⟩ := index_zero t
  funext j
  show k0_pay1 (F := Ideal) (iblk0 V c 0 t) (iblk0 V c 1 t) j
      = biasArr (V c main_arg8) (V c main_arg9) (((cfg0.win 2).blk t).view.emb j)
  refine pay_at (iblk0 V c 0 t) (iblk0 V c 1 t) (V c main_arg8) (V c main_arg9) ?_ ?_ j _ ?_
  · intro p k
    show V c main_arg8 (((cfg0.win 0).blk t).view.emb (ix2 p k)) = V c main_arg8 (ix2 p k)
    refine congrArg (V c main_arg8) ?_
    funext a; apply Fin.ext
    match a with
    | ⟨0, _⟩ => show win0_0.index t (0 : Fin 2) * 512 + 1 * p.val = p.val; omega
    | ⟨1, _⟩ => show win0_0.index t (1 : Fin 2) * 128 + 1 * k.val = k.val; omega
  · intro k q
    show V c main_arg9 (((cfg0.win 1).blk t).view.emb (ix2 k q)) = V c main_arg9 (ix2 k q)
    refine congrArg (V c main_arg9) ?_
    funext a; apply Fin.ext
    match a with
    | ⟨0, _⟩ => show win0_1.index t (0 : Fin 2) * 128 + 1 * k.val = k.val; omega
    | ⟨1, _⟩ => show win0_1.index t (1 : Fin 2) * 512 + 1 * q.val = q.val; omega
  · funext a; apply Fin.ext
    match a with
    | ⟨0, _⟩ => show win0_2.index t (0 : Fin 2) * 512 + 1 * (j 0).val = (j 0).val; omega
    | ⟨1, _⟩ => show win0_2.index t (1 : Fin 2) * 512 + 1 * (j 1).val = (j 1).val; omega

/-- An index of the output array is in point `t`'s block iff each coordinate is in the block's range on its axis. -/
theorem mem_block (t : Fin cfg0.N) (i : S512x512.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v7).slice (win0_2.rect t)).set ↔ _
  rw [View.set_slice_whole, Rect.mem_set_unit]
  exact Iff.rfl

/-- Every index of the output array is in the one point's block. -/
theorem covered (i : S512x512.Idx) :
    ∃ t : Fin cfg0.N, (cfg0.win 2).flush t = true ∧ i ∈ ((cfg0.win 2).blk t).view.set := by
  refine ⟨⟨0, by decide⟩, flush0_2 _, ?_⟩
  rw [mem_block]
  obtain ⟨-, -, -, -, e20, e21⟩ := index_zero ⟨0, by decide⟩
  have hi0 : (i 0).val < 512 := (i 0).isLt
  have hi1 : (i 1).val < 512 := (i 1).isLt
  intro a
  match a with
  | ⟨0, _⟩ =>
    show win0_2.index ⟨0, _⟩ (0 : Fin 2) * 512 ≤ (i 0).val ∧ (i 0).val < win0_2.index ⟨0, _⟩ (0 : Fin 2) * 512 + 512
    omega
  | ⟨1, _⟩ =>
    show win0_2.index ⟨0, _⟩ (1 : Fin 2) * 512 ≤ (i 1).val ∧ (i 1).val < win0_2.index ⟨0, _⟩ (1 : Fin 2) * 512 + 512
    omega

/-- THE OUTPUT ARRAY after the first region: the positional weights `exp (∑ j, U t j · W j s)` of the two factors
    as the region finds them. -/
theorem region0_array (c : Dev nD) :
    (dat0 V c).arrAt 2 cfg0.N
      = fun i : S512x512.Idx => Ideal.exp (Cert.AftSpec.lowRank (V c main_arg8) (V c main_arg9) (i 0) (i 1)) :=
  (dat0 V c).arrAt_eq_of_cover 2 (biasArr (V c main_arg8) (V c main_arg9)) (fun t _ => flushed_eq V c t) covered

end Cert.KernelIdeal.Whole

end
-- ==== Proof.KPayKV.lean ====
/-
  The second region's quotient, read at an index over the extended reals.

  From the key/value block `x1`, the fused transposed weights `x4` (256 columns: keys, then values) and the fused bias row
  `x5`, the body forms the fused projection `P s j = ∑ d, x1 0 s d · x4 d j + x5 0 j`.  Its first 128 columns are the keys,
  its last 128 the values.  With `M h` the maximum of key column `h` over the 512 rows (folded from the accumulator's word)
  and `E s h = exp (P s h - M h)`, the body concatenates `E` and `E · values` into 256 columns again, multiplies the
  positional weights `x6` into them, and divides the last 128 columns of the product by the first 128.
-/
import proofs.«112643_j214748365538_2_alg».proof.Proof.Gen.KernelIdeal.Skeleton
import proofs.«112643_j214748365538_2_alg».proof.Proof.KDot
import proofs.«112643_j214748365538_2_alg».proof.Proof.Cols
import proofs.«112643_j214748365538_2_alg».proof.Proof.Spec
import Idealize.ShloMosaic.Lib.Pipeline.Value
import Idealize.ShloMosaic.Lib.ValueLayout

noncomputable section

namespace Cert.KernelIdeal.Whole

open Cert.KernelIdeal Cert.KernelIdeal.Gen Idealize.ShloMosaic Idealize.ShloMosaic.ValueIdx Cert.AftSpec

/-! ## The body's intermediate vectors, named -/

/-- The fused key/value projection `x1 · x4 + x5`, 512 rows by 256 columns. -/
def fusedProj (x1 : Vec Ideal S1x512x512 .f32) (x4 : Vec Ideal S512x256 .f32) (x5 : Vec Ideal S1x256 .f32) : FVec Ideal S512x256 .f32 :=
  addf (FloatOps.matmul (F := Ideal) (φ₁ := .bf16) (φ₂ := .bf16) dot_S512x512_S512x256_S512x256_1_0_0_1_n_n none
      (shapeCast S512x512 x1 shapeCasts_S1x512x512_S512x512) (shapeCast S512x256 x4 shapeCasts_S512x256_S512x256)
      (constant (F := Ideal) S512x256 .f32 0x00000000#32))
    (broadcastTo S512x256 (shapeCast S1x256 x5 shapeCasts_S1x256_S1x256) broadcasts_S1x256_S512x256)

/-- The key columns: the first 128 of the 256. -/
def keyPart (P : FVec Ideal S512x256 .f32) : FVec Ideal S512x128 .f32 :=
  extractStridedSlice S512x128 ![0, 0] P slices_S512x256_o0_0_S512x128
/-- The value columns: the last 128 of the 256. -/
def valPart (P : FVec Ideal S512x256 .f32) : FVec Ideal S512x128 .f32 :=
  extractStridedSlice S512x128 ![0, 128] P slices_S512x256_o0_128_S512x128

/-- The maximum of each key column over the rows. -/
def keyMax (K : FVec Ideal S512x128 .f32) : FVec Ideal S128 .f32 :=
  Idealize.ShloMosaic.multiReduction (F := Ideal) .maximumf [0] S128 K 0xFF800000#32 reduces_S512x128_S128 (.inl rfl) rfl

/-- `exp (key - column maximum)`. -/
def keyWeight (K : FVec Ideal S512x128 .f32) : FVec Ideal S512x128 .f32 :=
  exp (subf K (broadcastTo S512x128 (shapeCast S1x128 (keyMax K) shapeCasts_S128_S1x128) broadcasts_S1x128_S512x128))

/-- The weights beside the weighted values, 256 columns again. -/
def fusedRhs (P : FVec Ideal S512x256 .f32) : FVec Ideal S512x256 .f32 :=
  concatenate S512x256 1 [⟨S512x128, keyWeight (keyPart P)⟩, ⟨S512x128, mulf (keyWeight (keyPart P)) (valPart P)⟩]
    concatenates_S512x128_S512x128_S512x256_d1

/-- The positional weights multiplied into the 256 columns. -/
def fusedSums (x6 : Vec Ideal S512x512 .bf16) (R : FVec Ideal S512x256 .f32) : FVec Ideal S512x256 .f32 :=
  FloatOps.matmul (F := Ideal) (φ₁ := .bf16) (φ₂ := .bf16) dot_S512x512_S512x256_S512x256_1_0_0_1_n_n none
    (shapeCast S512x512 x6 shapeCasts_S512x512_S512x512) R (constant (F := Ideal) S512x256 .f32 0x00000000#32)

/-- The body's quotient is these vectors composed. -/
theorem pay3_eq (x1 : Vec Ideal S1x512x512 .f32) (x4 : Vec Ideal S512x256 .f32) (x5 : Vec Ideal S1x256 .f32) (x6 : Vec Ideal S512x512 .bf16) :
    k1_pay3 (F := Ideal) x1 x4 x5 x6
      = divf (valPart (fusedSums x6 (fusedRhs (fusedProj x1 x4 x5)))) (keyPart (fusedSums x6 (fusedRhs (fusedProj x1 x4 x5)))) := rfl

/-! ## Each vector at an index -/

/-- Column `j` of row `s` of the fused projection. -/
def fusedAt (x1 : Vec Ideal S1x512x512 .f32) (x4 : Vec Ideal S512x256 .f32) (x5 : Vec Ideal S1x256 .f32) (s : Fin 512) (j : Fin 256) : EReal :=
  (∑ d : Fin 512, x1 (ix3 (0 : Fin 1) s d) * x4 (ix2 d j)) + x5 (ix2 (0 : Fin 1) j)

theorem fusedProj_at (x1 : Vec Ideal S1x512x512 .f32) (x4 : Vec Ideal S512x256 .f32) (x5 : Vec Ideal S1x256 .f32) (s : Fin 512) (j : Fin 256) :
    fusedProj x1 x4 x5 (ix2 s j) = fusedAt x1 x4 x5 s j := by
  unfold fusedProj fusedAt
  rw [addf_apply, Ideal.matmul_constant_zero_apply, wide_sum, broadcastTo_1b_ab_apply, shapeCast_self, shapeCast_self]
  simp only [shapeCast_1ab_ab_apply]

theorem keyPart_at (P : FVec Ideal S512x256 .f32) (s : Fin 512) (h : Fin 128) : keyPart P (ix2 s h) = P (ix2 s (keyCol h)) :=
  extractStridedSlice_apply _ P _ (ix2 s h) (ix2 s (keyCol h)) fun a => match a with
    | ⟨0, _⟩ => (Nat.zero_add _).symm
    | ⟨1, _⟩ => (Nat.zero_add _).symm

theorem valPart_at (P : FVec Ideal S512x256 .f32) (s : Fin 512) (h : Fin 128) : valPart P (ix2 s h) = P (ix2 s (valCol h)) :=
  extractStridedSlice_apply _ P _ (ix2 s h) (ix2 s (valCol h)) fun a => match a with
    | ⟨0, _⟩ => (Nat.zero_add _).symm
    | ⟨1, _⟩ => rfl

/-- The column maximum is the fold of `max` over the 512 rows from the accumulator's word. -/
theorem keyMax_at (K : FVec Ideal S512x128 .f32) (h : Fin 128) :
    keyMax K (ix1 h) = (Finset.univ : Finset (Fin 512)).fold max (Ideal.ofBits .f32 0xFF800000#32) (fun s => K (ix2 s h)) := by
  unfold keyMax
  refine (Ideal.multiReduction_maximumf_single K 0xFF800000#32 reduces_S512x128_S128 (.inl rfl) rfl (ix1 h)).trans ?_
  have hl : (K ∘ reduces_S512x128_S128.lift (ix1 h)) = fun s : Fin 512 => K (ix2 s h) :=
    funext fun s => congrArg K (funext fun a => Fin.ext (by
      match a with
      | ⟨0, _⟩ => rfl
      | ⟨1, _⟩ => rfl))
  exact congrArg (fun f : Fin 512 → EReal => (Finset.univ : Finset (Fin 512)).fold max (Ideal.ofBits .f32 0xFF800000#32) f) hl

theorem keyWeight_at (K : FVec Ideal S512x128 .f32) (s : Fin 512) (h : Fin 128) :
    keyWeight K (ix2 s h)
      = Ideal.exp (K (ix2 s h) - (Finset.univ : Finset (Fin 512)).fold max (Ideal.ofBits .f32 0xFF800000#32) (fun s' => K (ix2 s' h))) := by
  have e : keyWeight K (ix2 s h)
      = Ideal.exp (K (ix2 s h) - broadcastTo S512x128 (shapeCast S1x128 (keyMax K) shapeCasts_S128_S1x128) broadcasts_S1x128_S512x128 (ix2 s h)) := rfl
  rw [e, broadcastTo_1b_ab_apply, shapeCast_a_1a_apply, keyMax_at]

theorem fusedRhs_at_key (P : FVec Ideal S512x256 .f32) (s : Fin 512) (h : Fin 128) :
    fusedRhs P (ix2 s (keyCol h)) = keyWeight (keyPart P) (ix2 s h) := by
  unfold fusedRhs
  exact concatenate_pair_apply_left (t := S512x256) (s₁ := S512x128) (s₂ := S512x128) (1 : Fin 2)
    (keyWeight (keyPart P)) (mulf (keyWeight (keyPart P)) (valPart P)) concatenates_S512x128_S512x128_S512x256_d1
    (ix2 s (keyCol h)) rfl (ix2 s h)
    fun b => match b with
      | ⟨0, _⟩ => rfl
      | ⟨1, _⟩ => rfl

theorem fusedRhs_at_val (P : FVec Ideal S512x256 .f32) (s : Fin 512) (h : Fin 128) :
    fusedRhs P (ix2 s (valCol h)) = keyWeight (keyPart P) (ix2 s h) * valPart P (ix2 s h) := by
  unfold fusedRhs
  exact concatenate_pair_apply_right (t := S512x256) (s₁ := S512x128) (s₂ := S512x128) (1 : Fin 2)
    (keyWeight (keyPart P)) (mulf (keyWeight (keyPart P)) (valPart P)) concatenates_S512x128_S512x128_S512x256_d1
    (ix2 s (valCol h)) rfl rfl (ix2 s h)
    (fun b => match b with
      | ⟨0, _⟩ => fun _ => rfl
      | ⟨1, _⟩ => fun hb => absurd rfl hb)
    (Nat.add_comm _ _)

theorem fusedSums_at (x6 : Vec Ideal S512x512 .bf16) (R : FVec Ideal S512x256 .f32) (t : Fin 512) (j : Fin 256) :
    fusedSums x6 R (ix2 t j) = ∑ s : Fin 512, x6 (ix2 t s) * R (ix2 s j) := by
  unfold fusedSums
  rw [Ideal.matmul_constant_zero_apply, wide_sum, shapeCast_self]

/-! ## The quotient at an index -/

/-- Entry `(t, h)` of the quotient: the positional weights of query row `t` against `E · values`, over the same against `E`. -/
theorem quot_pay (x1 : Vec Ideal S1x512x512 .f32) (x4 : Vec Ideal S512x256 .f32) (x5 : Vec Ideal S1x256 .f32) (x6 : Vec Ideal S512x512 .bf16)
    (t : Fin 512) (h : Fin 128) :
    k1_pay3 (F := Ideal) x1 x4 x5 x6 (ix2 t h)
      = Ideal.div
          (∑ s : Fin 512, x6 (ix2 t s) *
            (Ideal.exp (fusedAt x1 x4 x5 s (keyCol h) - colMax (fun s' => fusedAt x1 x4 x5 s' (keyCol h))) * fusedAt x1 x4 x5 s (valCol h)))
          (∑ s : Fin 512, x6 (ix2 t s) *
            Ideal.exp (fusedAt x1 x4 x5 s (keyCol h) - colMax (fun s' => fusedAt x1 x4 x5 s' (keyCol h)))) := by
  rw [pay3_eq, divf_apply, valPart_at, keyPart_at, fusedSums_at, fusedSums_at]
  simp only [fusedRhs_at_val, fusedRhs_at_key, keyWeight_at, valPart_at, keyPart_at, fusedProj_at]
  rfl

end Cert.KernelIdeal.Whole

end
-- ==== Proof.R1Val.lean ====
/-
  The second region's result as a function of the arrays it finds at its entry.

  At its entry the region finds the query rows `A0` and the key/value rows `A1` (as launched), the transposed query weights
  `X2` and the query bias as one row `X3`, the fused transposed key/value weights `X4` (256 columns) and the fused bias row
  `X5`, and the positional weights `X6` the first region left.  At batch `b`, query row `t`, hidden unit `h` it writes the
  gate times the quotient of the two weighted sums over the key rows.
-/
import proofs.«112643_j214748365538_2_alg».proof.Proof.Spec
import proofs.«112643_j214748365538_2_alg».proof.Proof.Cols

noncomputable section

namespace Cert.AftSpec

open Idealize.ShloMosaic Idealize.ShloMosaic.ValueIdx

/-- A 512 × 256 matrix: the fused transposed key/value weights. -/
abbrev Mat512x256 := (⟨2, ![512, 256]⟩ : Shape).Idx → EReal
/-- One row of 128: the query bias. -/
abbrev Row128 := (⟨2, ![1, 128]⟩ : Shape).Idx → EReal
/-- One row of 256: the fused key/value bias. -/
abbrev Row256 := (⟨2, ![1, 256]⟩ : Shape).Idx → EReal
/-- A 512 × 512 matrix: the positional weights. -/
abbrev Mat512x512 := (⟨2, ![512, 512]⟩ : Shape).Idx → EReal

/-- Column `j` of the fused projection of key/value row `s` of batch `b`. -/
def fusedRow (A1 : Rows) (X4 : Mat512x256) (X5 : Row256) (b : Fin 2) (s : Fin 512) (j : Fin 256) : EReal :=
  (∑ d : Fin 512, A1 (ix3 b s d) * X4 (ix2 d j)) + X5 (ix2 (0 : Fin 1) j)

/-- What the second region writes at `(b, t, h)`. -/
def region1Val (A0 A1 : Rows) (X2 : Mat512x128) (X3 : Row128) (X4 : Mat512x256) (X5 : Row256) (X6 : Mat512x512)
    (b : Fin 2) (t : Fin 512) (h : Fin 128) : EReal :=
  Ideal.logistic ((∑ d : Fin 512, A0 (ix3 b t d) * X2 (ix2 d h)) + X3 (ix2 (0 : Fin 1) h)) *
    Ideal.div
      (∑ s : Fin 512, X6 (ix2 t s) *
        (Ideal.exp (fusedRow A1 X4 X5 b s (keyCol h) - colMax (fun s' => fusedRow A1 X4 X5 b s' (keyCol h))) *
          fusedRow A1 X4 X5 b s (valCol h)))
      (∑ s : Fin 512, X6 (ix2 t s) *
        Ideal.exp (fusedRow A1 X4 X5 b s (keyCol h) - colMax (fun s' => fusedRow A1 X4 X5 b s' (keyCol h))))

end Cert.AftSpec

end
-- ==== Proof.Region1.lean ====
/-
  The second region's output, as one function of the arrays the region finds at its entry.

  The region has two grid points, one per batch.  At point `t` the query window and the key/value window hold batch
  `t` of their arrays, the five other input windows hold their whole arrays, and the output window is batch `t` of the
  output.  The body stores the gate times the quotient of the two weighted sums; read at an index and with each block
  read where its window places it, that is the region's value at `(t, r, h)`.  The two points' blocks cover the output,
  so after the region the output array is that value at every index.
-/
import proofs.«112643_j214748365538_2_alg».proof.Proof.Gen.KernelIdeal.Frame
import proofs.«112643_j214748365538_2_alg».proof.Proof.KPay
import proofs.«112643_j214748365538_2_alg».proof.Proof.KPayKV
import proofs.«112643_j214748365538_2_alg».proof.Proof.R1Val
import Idealize.ShloMosaic.Lib.Pipeline.Value
import Idealize.ShloMosaic.Lib.ValueIdx
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.AftSpec
open Idealize.ShloMosaic.Pipeline (Dat)

variable (V : (c : Dev nD) → (b : Ref sig .tc) → Buf (Elt Ideal) ((c : Thread nD τ).loc b))

/-- The origin of a two-axis block, as a constant function. -/
theorem zero2_eq : (![0, 0] : Fin 2 → Nat) = fun _ => 0 := funext fun a => by fin_cases a <;> rfl
/-- The origin of a three-axis block, as a constant function. -/
theorem zero3_eq : (![0, 0, 0] : Fin 3 → Nat) = fun _ => 0 := funext fun a => by fin_cases a <;> rfl

/-- The region's value as one function of the seven arrays it reads, index by index. -/
abbrev gateQuot (A0 A1 : Rows) (X2 : Mat512x128) (X3 : Row128) (X4 : Mat512x256) (X5 : Row256) (X6 : Mat512x512) :
    S2x512x128.Idx → EReal :=
  fun i => region1Val A0 A1 X2 X3 X4 X5 X6 (i 0) (i 1) (i 2)

/-- The printed index maps of the three batched windows over the two-point grid: block `(t, 0, 0)`. -/
theorem index_batch : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_7.index t (0 : Fin 3) = t.val ∧ win1_7.index t (1 : Fin 3) = 0 ∧ win1_7.index t (2 : Fin 3) = 0 :=
  (by decide +kernel : ∀ t : Fin grid1.N, _)

/-- The printed index maps of the five whole-array windows: block `(0, 0)` at both points. -/
theorem index_whole : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-! ## Each input block, read where its window places it -/

/-- The query block at point `t` is batch `t` of the query rows. -/
theorem query_block (c : Dev nD) (t : Fin cfg1.N) (b : Fin 2) (hb : b.val = t.val) (u : Fin 1) (r d : Fin 512) :
    (iblk1 V c 0 t : Vec Ideal S1x512x512 .f32) (ix3 u r d) = (V c main_arg0 : S2x512x512.Idx → EReal) (ix3 b r d) := by
  obtain ⟨e0, e1, e2, -⟩ := index_batch t
  have hu := u.isLt
  show V c main_arg0 (((cfg1.win 0).blk t).view.emb (ix3 u r d)) = V c main_arg0 (ix3 b r d)
  refine congrArg (V c main_arg0) ?_
  funext a; apply Fin.ext
  match a with
  | ⟨0, _⟩ => show win1_0.index t (0 : Fin 3) * 1 + 1 * u.val = b.val; omega
  | ⟨1, _⟩ => show win1_0.index t (1 : Fin 3) * 512 + 1 * r.val = r.val; omega
  | ⟨2, _⟩ => show win1_0.index t (2 : Fin 3) * 512 + 1 * d.val = d.val; omega

/-- The key/value block at point `t` is batch `t` of the key/value rows. -/
theorem keyval_block (c : Dev nD) (t : Fin cfg1.N) (b : Fin 2) (hb : b.val = t.val) (u : Fin 1) (r d : Fin 512) :
    (iblk1 V c 1 t : Vec Ideal S1x512x512 .f32) (ix3 u r d) = (V c main_arg1 : S2x512x512.Idx → EReal) (ix3 b r d) := by
  obtain ⟨-, -, -, e0, e1, e2, -⟩ := index_batch t
  have hu := u.isLt
  show V c main_arg1 (((cfg1.win 1).blk t).view.emb (ix3 u r d)) = V c main_arg1 (ix3 b r d)
  refine congrArg (V c main_arg1) ?_
  funext a; apply Fin.ext
  match a with
  | ⟨0, _⟩ => show win1_1.index t (0 : Fin 3) * 1 + 1 * u.val = b.val; omega
  | ⟨1, _⟩ => show win1_1.index t (1 : Fin 3) * 512 + 1 * r.val = r.val; omega
  | ⟨2, _⟩ => show win1_1.index t (2 : Fin 3) * 512 + 1 * d.val = d.val; omega

/-- The transposed query weights' block is the whole array. -/
theorem qweight_block (c : Dev nD) (t : Fin cfg1.N) (d : Fin 512) (h : Fin 128) :
    (iblk1 V c 2 t : Vec Ideal S512x128 .f32) (ix2 d h) = (V c main_v0 : S512x128.Idx → EReal) (ix2 d h) := by
  obtain ⟨e0, e1, -⟩ := index_whole t
  show V c main_v0 (((cfg1.win 2).blk t).view.emb (ix2 d h)) = V c main_v0 (ix2 d h)
  refine congrArg (V c main_v0) ?_
  funext a; apply Fin.ext
  match a with
  | ⟨0, _⟩ => show win1_2.index t (0 : Fin 2) * 512 + 1 * d.val = d.val; omega
  | ⟨1, _⟩ => show win1_2.index t (1 : Fin 2) * 128 + 1 * h.val = h.val; omega

/-- The query bias row's block is the whole row. -/
theorem qbias_block (c : Dev nD) (t : Fin cfg1.N) (u : Fin 1) (h : Fin 128) :
    (iblk1 V c 3 t : Vec Ideal S1x128 .f32) (ix2 u h) = (V c main_v4 : S1x128.Idx → EReal) (ix2 u h) := by
  obtain ⟨-, -, e0, e1, -⟩ := index_whole t
  show V c main_v4 (((cfg1.win 3).blk t).view.emb (ix2 u h)) = V c main_v4 (ix2 u h)
  refine congrArg (V c main_v4) ?_
  funext a; apply Fin.ext
  match a with
  | ⟨0, _⟩ => show win1_3.index t (0 : Fin 2) * 1 + 1 * u.val = u.val; omega
  | ⟨1, _⟩ => show win1_3.index t (1 : Fin 2) * 128 + 1 * h.val = h.val; omega

/-- The fused transposed key/value weights' block is the whole array. -/
theorem kvweight_block (c : Dev nD) (t : Fin cfg1.N) (d : Fin 512) (j : Fin 256) :
    (iblk1 V c 4 t : Vec Ideal S512x256 .f32) (ix2 d j) = (V c main_v3 : S512x256.Idx → EReal) (ix2 d j) := by
  obtain ⟨-, -, -, -, e0, e1, -⟩ := index_whole t
  show V c main_v3 (((cfg1.win 4).blk t).view.emb (ix2 d j)) = V c main_v3 (ix2 d j)
  refine congrArg (V c main_v3) ?_
  funext a; apply Fin.ext
  match a with
  | ⟨0, _⟩ => show win1_4.index t (0 : Fin 2) * 512 + 1 * d.val = d.val; omega
  | ⟨1, _⟩ => show win1_4.index t (1 : Fin 2) * 256 + 1 * j.val = j.val; omega

/-- The fused key/value bias row's block is the whole row. -/
theorem kvbias_block (c : Dev nD) (t : Fin cfg1.N) (u : Fin 1) (j : Fin 256) :
    (iblk1 V c 5 t : Vec Ideal S1x256 .f32) (ix2 u j) = (V c main_v6 : S1x256.Idx → EReal) (ix2 u j) := by
  obtain ⟨-, -, -, -, -, -, e0, e1, -⟩ := index_whole t
  show V c main_v6 (((cfg1.win 5).blk t).view.emb (ix2 u j)) = V c main_v6 (ix2 u j)
  refine congrArg (V c main_v6) ?_
  funext a; apply Fin.ext
  match a with
  | ⟨0, _⟩ => show win1_5.index t (0 : Fin 2) * 1 + 1 * u.val = u.val; omega
  | ⟨1, _⟩ => show win1_5.index t (1 : Fin 2) * 256 + 1 * j.val = j.val; omega

/-- The positional weights' block is the whole array. -/
theorem posweight_block (c : Dev nD) (t : Fin cfg1.N) (r s : Fin 512) :
    (iblk1 V c 6 t : Vec Ideal S512x512 .bf16) (ix2 r s) = (V c main_v7 : S512x512.Idx → EReal) (ix2 r s) := by
  obtain ⟨-, -, -, -, -, -, -, -, e0, e1⟩ := index_whole t
  show V c main_v7 (((cfg1.win 6).blk t).view.emb (ix2 r s)) = V c main_v7 (ix2 r s)
  refine congrArg (V c main_v7) ?_
  funext a; apply Fin.ext
  match a with
  | ⟨0, _⟩ => show win1_6.index t (0 : Fin 2) * 512 + 1 * r.val = r.val; omega
  | ⟨1, _⟩ => show win1_6.index t (1 : Fin 2) * 512 + 1 * s.val = s.val; omega

/-! ## The body's payload on blocks that agree with the arrays -/

/-- On blocks that hold batch `b` of the two row arrays and the whole of the five others, the body's payload at an
    output index `j` that the output's rectangle places at `i = (b, j 1, j 2)` is the region's value at `i`. -/
theorem pay_at_batch (x0 x1 : Vec Ideal S1x512x512 .f32) (x2 : Vec Ideal S512x128 .f32) (x3 : Vec Ideal S1x128 .f32)
    (x4 : Vec Ideal S512x256 .f32) (x5 : Vec Ideal S1x256 .f32) (x6 : Vec Ideal S512x512 .bf16)
    (A0 A1 : Rows) (X2 : Mat512x128) (X3 : Row128) (X4 : Mat512x256) (X5 : Row256) (X6 : Mat512x512) (b : Fin 2)
    (h0 : ∀ (u : Fin 1) (r d : Fin 512), x0 (ix3 u r d) = A0 (ix3 b r d))
    (h1 : ∀ (u : Fin 1) (r d : Fin 512), x1 (ix3 u r d) = A1 (ix3 b r d))
    (h2 : ∀ (d : Fin 512) (h : Fin 128), x2 (ix2 d h) = X2 (ix2 d h))
    (h3 : ∀ (u : Fin 1) (h : Fin 128), x3 (ix2 u h) = X3 (ix2 u h))
    (h4 : ∀ (d : Fin 512) (j : Fin 256), x4 (ix2 d j) = X4 (ix2 d j))
    (h5 : ∀ (u : Fin 1) (j : Fin 256), x5 (ix2 u j) = X5 (ix2 u j))
    (h6 : ∀ (r s : Fin 512), x6 (ix2 r s) = X6 (ix2 r s))
    (j : S1x512x128.Idx) (i : S2x512x128.Idx) (hi0 : i 0 = b) (hi1 : i 1 = j 1) (hi2 : i 2 = j 2) :
    k1_pay1 (F := Ideal) (k1_pay2 (F := Ideal) x0 x2 x3) (k1_pay3 (F := Ideal) x1 x4 x5 x6) j
      = gateQuot A0 A1 X2 X3 X4 X5 X6 i := by
  obtain ⟨u, r, h, rfl⟩ : ∃ (u : Fin 1) (r : Fin 512) (h : Fin 128), j = ix3 u r h := ⟨j 0, j 1, j 2, eq_ix3 j⟩
  have hi1' : i 1 = r := hi1
  have hi2' : i 2 = h := hi2
  show _ = region1Val A0 A1 X2 X3 X4 X5 X6 (i 0) (i 1) (i 2)
  rw [hi0, hi1', hi2']
  have e : k1_pay1 (F := Ideal) (k1_pay2 (F := Ideal) x0 x2 x3) (k1_pay3 (F := Ideal) x1 x4 x5 x6) (ix3 u r h)
      = shapeCast S1x512x128 (mulf (k1_pay2 (F := Ideal) x0 x2 x3) (k1_pay3 (F := Ideal) x1 x4 x5 x6))
          shapeCasts_S512x128_S1x512x128 (ix3 u r h) := rfl
  rw [e, shapeCast_ab_1ab_apply, mulf_apply, gate_pay, quot_pay]
  unfold region1Val fusedRow fusedAt
  simp only [h0, h1, h2, h3, h4, h5, h6]

/-! ## What each point writes back, and the cover -/

/-- WHAT POINT `t` WRITES BACK is its block of the region's value of the arrays as the region finds them. -/
theorem batch_flushed_eq (c : Dev nD) (t : Fin cfg1.N) :
    (dat1 V c).flushed 7 t
      = ((cfg1.win 7).blk t).view.read (Elt Ideal)
          (gateQuot (V c main_arg0) (V c main_arg1) (V c main_v0) (V c main_v4) (V c main_v3) (V c main_v6) (V c main_v7)) := by
  show (cfg1.win 7).cut (grid1.coords t) ((dat1 V c).after 7 t) = _
  rw [after1_7]
  unfold out1_7
  rw [View.canon_unit_zero zero3_eq]
  simp only [View.ld_unit_zero (S := S1x512x512) zero3_eq, View.ld_unit_zero (S := S512x128) zero2_eq,
    View.ld_unit_zero (S := S1x128) zero2_eq, View.ld_unit_zero (S := S512x256) zero2_eq,
    View.ld_unit_zero (S := S1x256) zero2_eq, View.ld_unit_zero (S := S512x512) zero2_eq]
  obtain ⟨-, -, -, -, -, -, e0, e1, e2⟩ := index_batch t
  have ht : t.val < 2 := Nat.lt_of_lt_of_eq t.isLt (show cfg1.N = 2 from N_1)
  obtain ⟨b, hb⟩ : ∃ b : Fin 2, b.val = t.val := ⟨⟨t.val, ht⟩, rfl⟩
  funext j
  show k1_pay1 (F := Ideal) (k1_pay2 (F := Ideal) (iblk1 V c 0 t) (iblk1 V c 2 t) (iblk1 V c 3 t))
        (k1_pay3 (F := Ideal) (iblk1 V c 1 t) (iblk1 V c 4 t) (iblk1 V c 5 t) (iblk1 V c 6 t)) j
      = gateQuot (V c main_arg0) (V c main_arg1) (V c main_v0) (V c main_v4) (V c main_v3) (V c main_v6) (V c main_v7)
          (((cfg1.win 7).blk t).view.emb j)
  have hj := (j 0).isLt
  refine pay_at_batch (iblk1 V c 0 t) (iblk1 V c 1 t) (iblk1 V c 2 t) (iblk1 V c 3 t) (iblk1 V c 4 t) (iblk1 V c 5 t)
    (iblk1 V c 6 t) (V c main_arg0) (V c main_arg1) (V c main_v0) (V c main_v4) (V c main_v3) (V c main_v6) (V c main_v7) b
    (query_block V c t b hb) (keyval_block V c t b hb) (qweight_block V c t) (qbias_block V c t) (kvweight_block V c t)
    (kvbias_block V c t) (posweight_block V c t) j _ ?_ ?_ ?_
  · apply Fin.ext
    show win1_7.index t (0 : Fin 3) * 1 + 1 * (j 0).val = b.val
    have hj' : (j 0).val < 1 := hj
    omega
  · apply Fin.ext
    show win1_7.index t (1 : Fin 3) * 512 + 1 * (j 1).val = (j 1).val
    omega
  · apply Fin.ext
    show win1_7.index t (2 : Fin 3) * 128 + 1 * (j 2).val = (j 2).val
    omega

/-- An index of the output array is in point `t`'s block iff each coordinate is in the block's range on its axis. -/
theorem mem_batch_block (t : Fin cfg1.N) (i : S2x512x128.Idx) :
    i ∈ ((cfg1.win 7).blk t).view.set ↔ ∀ a : Fin 3, win1_7.index t a * S1x512x128.size a ≤ (i a).val
      ∧ (i a).val < win1_7.index t a * S1x512x128.size a + S1x512x128.size a := by
  show i ∈ ((View.whole main_v8).slice (win1_7.rect t)).set ↔ _
  rw [View.set_slice_whole, Rect.mem_set_unit]
  exact Iff.rfl

/-- Every index of the output array is in the block of the point of its batch. -/
theorem batch_covered (i : S2x512x128.Idx) :
    ∃ t : Fin cfg1.N, (cfg1.win 7).flush t = true ∧ i ∈ ((cfg1.win 7).blk t).view.set := by
  have hi0 : (i 0).val < 2 := (i 0).isLt
  have hi1 : (i 1).val < 512 := (i 1).isLt
  have hi2 : (i 2).val < 128 := (i 2).isLt
  obtain ⟨t, ht⟩ : ∃ t : Fin cfg1.N, t.val = (i 0).val :=
    ⟨⟨(i 0).val, by rw [show cfg1.N = 2 from N_1]; exact hi0⟩, rfl⟩
  refine ⟨t, flush1_7 t, ?_⟩
  rw [mem_batch_block]
  obtain ⟨-, -, -, -, -, -, e0, e1, e2⟩ := index_batch t
  intro a
  match a with
  | ⟨0, _⟩ =>
    show win1_7.index t (0 : Fin 3) * 1 ≤ (i 0).val ∧ (i 0).val < win1_7.index t (0 : Fin 3) * 1 + 1
    omega
  | ⟨1, _⟩ =>
    show win1_7.index t (1 : Fin 3) * 512 ≤ (i 1).val ∧ (i 1).val < win1_7.index t (1 : Fin 3) * 512 + 512
    omega
  | ⟨2, _⟩ =>
    show win1_7.index t (2 : Fin 3) * 128 ≤ (i 2).val ∧ (i 2).val < win1_7.index t (2 : Fin 3) * 128 + 128
    omega

/-- THE OUTPUT ARRAY after the second region: the region's value of the arrays as the region finds them, at every
    index. -/
theorem region1_array (c : Dev nD) :
    (dat1 V c).arrAt 7 cfg1.N
      = fun i : S2x512x128.Idx => Cert.AftSpec.region1Val (V c main_arg0) (V c main_arg1) (V c main_v0) (V c main_v4)
          (V c main_v3) (V c main_v6) (V c main_v7) (i 0) (i 1) (i 2) :=
  (dat1 V c).arrAt_eq_of_cover 7
    (gateQuot (V c main_arg0) (V c main_arg1) (V c main_v0) (V c main_v4) (V c main_v3) (V c main_v6) (V c main_v7))
    (fun t _ => batch_flushed_eq V c t) batch_covered

end Cert.KernelIdeal.Whole

end
-- ==== Proof.Glue.lean ====
/-
  From the arrays the second region finds to the ten arguments.

  The host operations in front of the regions only re-lay the weights: the transposed query weights at `(d, h)` are the
  query weights at `(h, d)`; the fused key/value weights at `(d, key column h)` are the key weights at `(h, d)` and at
  `(d, value column h)` the value weights at `(h, d)`; the bias rows likewise; and the positional weights the first region
  leaves are `exp` of the low-rank bias.  Substituting, the second region's value is the kernel's value `kerOut`.
-/
import proofs.«112643_j214748365538_2_alg».proof.Proof.R1Val

noncomputable section

namespace Cert.AftSpec

open Idealize.ShloMosaic Idealize.ShloMosaic.ValueIdx

theorem region1Val_eq_kerOut (q kv : Rows) (Wq : Mat128x512) (bq : Vec128) (Wk : Mat128x512) (bk : Vec128) (Wv : Mat128x512) (bv : Vec128)
    (U : Mat512x128) (V : Mat128x512) (X2 : Mat512x128) (X3 : Row128) (X4 : Mat512x256) (X5 : Row256) (X6 : Mat512x512)
    (h2 : ∀ (d : Fin 512) (h : Fin 128), X2 (ix2 d h) = Wq (ix2 h d))
    (h3 : ∀ h : Fin 128, X3 (ix2 (0 : Fin 1) h) = bq (ix1 h))
    (h4k : ∀ (d : Fin 512) (h : Fin 128), X4 (ix2 d (keyCol h)) = Wk (ix2 h d))
    (h4v : ∀ (d : Fin 512) (h : Fin 128), X4 (ix2 d (valCol h)) = Wv (ix2 h d))
    (h5k : ∀ h : Fin 128, X5 (ix2 (0 : Fin 1) (keyCol h)) = bk (ix1 h))
    (h5v : ∀ h : Fin 128, X5 (ix2 (0 : Fin 1) (valCol h)) = bv (ix1 h))
    (h6 : ∀ t s : Fin 512, X6 (ix2 t s) = Ideal.exp (lowRank U V t s))
    (b : Fin 2) (t : Fin 512) (h : Fin 128) :
    region1Val q kv X2 X3 X4 X5 X6 b t h = kerOut q kv Wq bq Wk bk Wv bv U V b t h := by
  have hk : ∀ s : Fin 512, fusedRow kv X4 X5 b s (keyCol h) = proj kv Wk bk b s h := fun s => by
    unfold fusedRow proj; simp only [h4k, h5k]
  have hv : ∀ s : Fin 512, fusedRow kv X4 X5 b s (valCol h) = proj kv Wv bv b s h := fun s => by
    unfold fusedRow proj; simp only [h4v, h5v]
  have hq : (∑ d : Fin 512, q (ix3 b t d) * X2 (ix2 d h)) + X3 (ix2 (0 : Fin 1) h) = proj q Wq bq b t h := by
    unfold proj; simp only [h2, h3]
  unfold region1Val kerOut
  rw [hq]
  simp only [hk, hv, h6]

end Cert.AftSpec

end
-- ==== Proof.KFinal.lean ====
/-
  The idealized kernel's run with its value: the result array is `kerOut` of the ten argument arrays.

  The result buffer ends at what the second region's write-backs leave (`W3`); its two blocks tile the array, and at each
  index the body's value is the second region's function of the arrays it finds at its entry; those are the launch arrays,
  re-laid by the host operations, and the first region's positional weights; substituting gives `kerOut`.
-/
import proofs.«112643_j214748365538_2_alg».proof.Proof.KRun
import proofs.«112643_j214748365538_2_alg».proof.Proof.HostSide
import proofs.«112643_j214748365538_2_alg».proof.Proof.Region0
import proofs.«112643_j214748365538_2_alg».proof.Proof.Region1
import proofs.«112643_j214748365538_2_alg».proof.Proof.Glue

noncomputable section

namespace Cert.KernelIdeal.Whole

open Cert.KernelIdeal Cert.KernelIdeal.Gen Idealize.ShloMosaic Idealize.ShloMosaic.TcCoe Idealize.ShloMosaic.ValueIdx
open Idealize.SL.Sem Cert.AftSpec

variable (m : (ℓ : Loc nD τ sig) → Buf (Elt Ideal) ℓ) (ρ : Dev nD → PrngReg)

/-- The kernel's result array on device `c`, as a function of the launch memory's ten argument arrays. -/
def kerArr (c : Dev nD) : S2x512x128.Idx → EReal := fun i =>
  kerOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (i 0) (i 1) (i 2)

/-- The positional weights the second region finds: the first region's one block, `exp` of the low-rank bias. -/
theorem weights_at (c : Dev nD) (t s : Fin 512) :
    (V2 m ρ c main_v7 : S512x512.Idx → EReal) (ix2 t s)
      = Ideal.exp (lowRank (m ((c : Thread nD τ).loc main_arg8)) (m ((c : Thread nD τ).loc main_arg9)) t s) := by
  have e : V2 m ρ c main_v7 = (dat0 (V1 m ρ) c).arrAt 2 cfg0.N := (hF0 m ρ c 2).symm
  rw [e, region0_array (V1 m ρ) c, entry_u, entry_v]

/-- The result buffer after the run. -/
theorem result_eq (c : Dev nD) : W3 m ρ c (Proc.devRef .tc main_v8) = kerArr m c := by
  refine (W3_arr m ρ c 7).trans ?_
  rw [region1_array (V2 m ρ) c]
  funext i
  rw [entry_q, entry_kv]
  exact region1Val_eq_kerOut _ _ _ _ _ _ _ _ _ _ _ _ _ _ _ (entry_wq_at m ρ c) (entry_qb_at m ρ c) (entry_wk_at m ρ c)
    (entry_wv_at m ρ c) (entry_bk_at m ρ c) (entry_bv_at m ρ c) (weights_at m ρ c) (i 0) (i 1) (i 2)

/-- Every weakly fair execution of the idealized kernel terminates without a fault, with the result array at `kerArr` and the
    arguments as launched. -/
theorem run : θ_run defs (onTc (τ := τ) (main (F := Ideal))) ⟨m, fun _ => 0, ρ⟩ (fun r => ∀ c : Dev nD,
      r.2.mem ((c.tc : Thread nD τ).loc main_v8) = kerArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (run_value m ρ)

end Cert.KernelIdeal.Whole

end
-- ==== Proof.RefSide.lean ====
/-
  The reference program's result, read index by index, is the specification's `refOut`.

  Each operation of the reference is read at an index from its operands at an index.  The three projections read
  a row of the input against a row of the weights and add the bias; the positional bias is the product of its two
  factors; the weights `exp (k s + w t s)` live on a rank-4 index set (batch, query row, key row, hidden unit), on which
  the keys and values are constant along the query row and the positional bias is constant along the batch and the
  hidden unit; the numerator and denominator sum the key row out.  What is left to prove is that the composed index
  maps of the broadcasts and contractions are the coordinate constructors the specification is written with.
-/
import proofs.«112643_j214748365538_2_alg».proof.Proof.Gen.ReferenceIdeal.Read
import proofs.«112643_j214748365538_2_alg».proof.Proof.Spec

noncomputable section

namespace Cert.AftRef

open Cert.ReferenceIdeal Cert.ReferenceIdeal.Gen Cert.ReferenceIdeal.Read Cert.AftSpec
open Idealize.ShloMosaic Idealize.ShloMosaic.ValueIdx Idealize.SL.Sem Idealize.ShloMosaic.StableHlo

/-! ## The index maps, at coordinates -/

/-- A projection's contraction reads row `(b, t)` of the input at feature `k` … -/
theorem lidx_v0 (b : Fin 2) (t : Fin 512) (h : Fin 128) (k : Fin 512) :
    lidx_main_v0 (ix3 b t h) k = ix3 b t k :=
  funext fun a => Fin.ext (by match a with | ⟨0, _⟩ => rfl | ⟨1, _⟩ => rfl | ⟨2, _⟩ => rfl)
/-- … against row `h` of the weights at the same feature. -/
theorem ridx_v0 (b : Fin 2) (t : Fin 512) (h : Fin 128) (k : Fin 512) :
    ridx_main_v0 (ix3 b t h) k = ix2 h k :=
  funext fun a => Fin.ext (by match a with | ⟨0, _⟩ => rfl | ⟨1, _⟩ => rfl)
theorem lidx_v4 (b : Fin 2) (t : Fin 512) (h : Fin 128) (k : Fin 512) :
    lidx_main_v4 (ix3 b t h) k = ix3 b t k :=
  funext fun a => Fin.ext (by match a with | ⟨0, _⟩ => rfl | ⟨1, _⟩ => rfl | ⟨2, _⟩ => rfl)
theorem ridx_v4 (b : Fin 2) (t : Fin 512) (h : Fin 128) (k : Fin 512) :
    ridx_main_v4 (ix3 b t h) k = ix2 h k :=
  funext fun a => Fin.ext (by match a with | ⟨0, _⟩ => rfl | ⟨1, _⟩ => rfl)
theorem lidx_v8 (b : Fin 2) (t : Fin 512) (h : Fin 128) (k : Fin 512) :
    lidx_main_v8 (ix3 b t h) k = ix3 b t k :=
  funext fun a => Fin.ext (by match a with | ⟨0, _⟩ => rfl | ⟨1, _⟩ => rfl | ⟨2, _⟩ => rfl)
theorem ridx_v8 (b : Fin 2) (t : Fin 512) (h : Fin 128) (k : Fin 512) :
    ridx_main_v8 (ix3 b t h) k = ix2 h k :=
  funext fun a => Fin.ext (by match a with | ⟨0, _⟩ => rfl | ⟨1, _⟩ => rfl)

/-- The bias, broadcast over batch and row, is read at the hidden unit. -/
theorem idx_bias_q (b : Fin 2) (t : Fin 512) (h : Fin 128) :
    idx_main_v1 (idx_main_v2 (ix3 b t h)) = ix1 h :=
  funext fun a => Fin.ext (by match a with | ⟨0, _⟩ => rfl)
theorem idx_bias_k (b : Fin 2) (t : Fin 512) (h : Fin 128) :
    idx_main_v5 (idx_main_v6 (ix3 b t h)) = ix1 h :=
  funext fun a => Fin.ext (by match a with | ⟨0, _⟩ => rfl)
theorem idx_bias_v (b : Fin 2) (t : Fin 512) (h : Fin 128) :
    idx_main_v9 (idx_main_v10 (ix3 b t h)) = ix1 h :=
  funext fun a => Fin.ext (by match a with | ⟨0, _⟩ => rfl)

/-- The positional bias contracts row `t` of the left factor … -/
theorem lidx_v12 (t s : Fin 512) (j : Fin 128) : lidx_main_v12 (ix2 t s) j = ix2 t j :=
  funext fun a => Fin.ext (by match a with | ⟨0, _⟩ => rfl | ⟨1, _⟩ => rfl)
/-- … with column `s` of the right factor. -/
theorem ridx_v12 (t s : Fin 512) (j : Fin 128) : ridx_main_v12 (ix2 t s) j = ix2 j s :=
  funext fun a => Fin.ext (by match a with | ⟨0, _⟩ => rfl | ⟨1, _⟩ => rfl)

/-- On the rank-4 index set the keys are read at (batch, key row, hidden unit) … -/
theorem idx_keys (b : Fin 2) (t s : Fin 512) (h : Fin 128) :
    idx_main_v13 (idx_main_v15 (ix4 b t s h)) = ix3 b s h :=
  funext fun a => Fin.ext (by match a with | ⟨0, _⟩ => rfl | ⟨1, _⟩ => rfl | ⟨2, _⟩ => rfl)
/-- … so are the values … -/
theorem idx_vals (b : Fin 2) (t s : Fin 512) (h : Fin 128) :
    idx_main_v19 (idx_main_v20 (ix4 b t s h)) = ix3 b s h :=
  funext fun a => Fin.ext (by match a with | ⟨0, _⟩ => rfl | ⟨1, _⟩ => rfl | ⟨2, _⟩ => rfl)
/-- … and the positional bias at (query row, key row). -/
theorem idx_bias_w (b : Fin 2) (t s : Fin 512) (h : Fin 128) :
    idx_main_v14 (idx_main_v16 (ix4 b t s h)) = ix2 t s :=
  funext fun a => Fin.ext (by match a with | ⟨0, _⟩ => rfl | ⟨1, _⟩ => rfl)

/-- The two sums run over the key row. -/
theorem idx_num (b : Fin 2) (t : Fin 512) (h : Fin 128) (s : Fin 512) :
    idx_main_v22 (ix3 b t h) s = ix4 b t s h :=
  funext fun a => Fin.ext (by match a with | ⟨0, _⟩ => rfl | ⟨1, _⟩ => rfl | ⟨2, _⟩ => rfl | ⟨3, _⟩ => rfl)
theorem idx_den (b : Fin 2) (t : Fin 512) (h : Fin 128) (s : Fin 512) :
    idx_main_v23 (ix3 b t h) s = ix4 b t s h :=
  funext fun a => Fin.ext (by match a with | ⟨0, _⟩ => rfl | ⟨1, _⟩ => rfl | ⟨2, _⟩ => rfl | ⟨3, _⟩ => rfl)

/-! ## The stages, at coordinates -/

/-- The query projection. -/
theorem queries_at (x0 : (⟨S2x512x512, .f32⟩ : BufTy).Contents (Elt Ideal)) (x2 : (⟨S128x512, .f32⟩ : BufTy).Contents (Elt Ideal)) (x3 : (⟨S128, .f32⟩ : BufTy).Contents (Elt Ideal))
    (b : Fin 2) (t : Fin 512) (h : Fin 128) :
    val_main_v3 (F := Ideal) x0 x2 x3 (ix3 b t h) = proj x0 x2 x3 b t h := by
  rw [val_main_v3_apply, val_main_v0_apply, val_main_v2_apply, val_main_v1_apply, idx_bias_q]
  simp only [lidx_v0, ridx_v0]
  rfl

/-- The key projection. -/
theorem keys_at (x1 : (⟨S2x512x512, .f32⟩ : BufTy).Contents (Elt Ideal)) (x4 : (⟨S128x512, .f32⟩ : BufTy).Contents (Elt Ideal)) (x5 : (⟨S128, .f32⟩ : BufTy).Contents (Elt Ideal))
    (b : Fin 2) (s : Fin 512) (h : Fin 128) :
    val_main_v7 (F := Ideal) x1 x4 x5 (ix3 b s h) = proj x1 x4 x5 b s h := by
  rw [val_main_v7_apply, val_main_v4_apply, val_main_v6_apply, val_main_v5_apply, idx_bias_k]
  simp only [lidx_v4, ridx_v4]
  rfl

/-- The value projection. -/
theorem values_at (x1 : (⟨S2x512x512, .f32⟩ : BufTy).Contents (Elt Ideal)) (x6 : (⟨S128x512, .f32⟩ : BufTy).Contents (Elt Ideal)) (x7 : (⟨S128, .f32⟩ : BufTy).Contents (Elt Ideal))
    (b : Fin 2) (s : Fin 512) (h : Fin 128) :
    val_main_v11 (F := Ideal) x1 x6 x7 (ix3 b s h) = proj x1 x6 x7 b s h := by
  rw [val_main_v11_apply, val_main_v8_apply, val_main_v10_apply, val_main_v9_apply, idx_bias_v]
  simp only [lidx_v8, ridx_v8]
  rfl

/-- The positional bias. -/
theorem bias_at (x8 : (⟨S512x128, .f32⟩ : BufTy).Contents (Elt Ideal)) (x9 : (⟨S128x512, .f32⟩ : BufTy).Contents (Elt Ideal)) (t s : Fin 512) :
    val_main_v12 (F := Ideal) x8 x9 (ix2 t s) = lowRank x8 x9 t s := by
  rw [val_main_v12_apply]
  simp only [lidx_v12, ridx_v12]
  rfl

/-- The weight of key row `s` for query row `t`. -/
theorem weight_at (x1 : (⟨S2x512x512, .f32⟩ : BufTy).Contents (Elt Ideal)) (x4 : (⟨S128x512, .f32⟩ : BufTy).Contents (Elt Ideal)) (x5 : (⟨S128, .f32⟩ : BufTy).Contents (Elt Ideal))
    (x8 : (⟨S512x128, .f32⟩ : BufTy).Contents (Elt Ideal)) (x9 : (⟨S128x512, .f32⟩ : BufTy).Contents (Elt Ideal)) (b : Fin 2) (t s : Fin 512) (h : Fin 128) :
    val_main_v18 (F := Ideal) x1 x4 x5 x8 x9 (ix4 b t s h)
      = Ideal.exp (proj x1 x4 x5 b s h + lowRank x8 x9 t s) := by
  rw [val_main_v18_apply, val_main_v17_apply, val_main_v15_apply, val_main_v13_apply, idx_keys, keys_at,
    val_main_v16_apply, val_main_v14_apply, idx_bias_w, bias_at]
  rfl

/-- The weighted value. -/
theorem weighted_at (x1 : (⟨S2x512x512, .f32⟩ : BufTy).Contents (Elt Ideal)) (x4 : (⟨S128x512, .f32⟩ : BufTy).Contents (Elt Ideal)) (x5 : (⟨S128, .f32⟩ : BufTy).Contents (Elt Ideal))
    (x6 : (⟨S128x512, .f32⟩ : BufTy).Contents (Elt Ideal)) (x7 : (⟨S128, .f32⟩ : BufTy).Contents (Elt Ideal))
    (x8 : (⟨S512x128, .f32⟩ : BufTy).Contents (Elt Ideal)) (x9 : (⟨S128x512, .f32⟩ : BufTy).Contents (Elt Ideal)) (b : Fin 2) (t s : Fin 512) (h : Fin 128) :
    val_main_v21 (F := Ideal) x1 x4 x5 x6 x7 x8 x9 (ix4 b t s h)
      = Ideal.exp (proj x1 x4 x5 b s h + lowRank x8 x9 t s) * proj x1 x6 x7 b s h := by
  rw [val_main_v21_apply, weight_at, val_main_v20_apply, val_main_v19_apply, idx_vals, values_at]
  rfl

/-! ## The result -/

theorem ref_value (x0 x1 : (⟨S2x512x512, .f32⟩ : BufTy).Contents (Elt Ideal)) (x2 : (⟨S128x512, .f32⟩ : BufTy).Contents (Elt Ideal)) (x3 : (⟨S128, .f32⟩ : BufTy).Contents (Elt Ideal))
    (x4 : (⟨S128x512, .f32⟩ : BufTy).Contents (Elt Ideal)) (x5 : (⟨S128, .f32⟩ : BufTy).Contents (Elt Ideal)) (x6 : (⟨S128x512, .f32⟩ : BufTy).Contents (Elt Ideal)) (x7 : (⟨S128, .f32⟩ : BufTy).Contents (Elt Ideal))
    (x8 : (⟨S512x128, .f32⟩ : BufTy).Contents (Elt Ideal)) (x9 : (⟨S128x512, .f32⟩ : BufTy).Contents (Elt Ideal)) :
    Cert.ReferenceIdeal.Read.val_main_v31 (F := Ideal) x0 x1 x2 x3 x4 x5 x6 x7 x8 x9
      = fun i => Cert.AftSpec.refOut x0 x1 x2 x3 x4 x5 x6 x7 x8 x9 (i 0) (i 1) (i 2) := by
  funext i
  obtain ⟨b, t, h, rfl⟩ : ∃ (b : Fin 2) (t : Fin 512) (h : Fin 128), i = ix3 b t h := ⟨i 0, i 1, i 2, eq_ix3 i⟩
  rw [val_main_v31_apply, val_main_v29_apply, val_main_v28_apply, val_main_cst_2_apply, val_main_v27_apply,
    val_main_v26_apply, val_main_cst_1_apply, val_main_v25_apply, val_main_v24_apply, queries_at,
    val_main_v30_apply, val_main_v22_apply, val_main_cst_apply, val_main_v23_apply, val_main_cst_0_apply]
  simp only [idx_num, idx_den, weighted_at, weight_at]
  rfl

end Cert.AftRef

end
-- ==== Proof.Law.lean ====
/-
  When every entry of the ten argument arrays is a real number, the kernel's value and the reference's value agree at
  every index.

  Every projection and every positional-bias entry is then a real (a finite sum of products of reals, plus a real), and
  the running maximum `M` of 512 reals folded from -∞ is a real.  On reals `exp (k + w) = exp M · (exp w · exp (k - M))`,
  so the reference's numerator and denominator are `exp M` times the kernel's; the denominators are positive reals, so
  both quotients are quotients of reals and the common factor `exp M ≠ 0` cancels.
-/
import proofs.«112643_j214748365538_2_alg».proof.Proof.Spec

noncomputable section

namespace Cert.AftSpec

open Idealize.ShloMosaic Idealize.ShloMosaic.ValueIdx

/-- A finite sum of coerced reals is the coercion of the real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The -∞ word. -/
theorem ofBits_neg_inf : Ideal.ofBits .f32 0xFF800000#32 = (⊥ : EReal) := by
  simp [Ideal.ofBits, Ideal.ieee]

/-- The one word. -/
theorem ofBits_one : Ideal.ofBits .f32 0x3F800000#32 = (1 : EReal) := by
  simp [Ideal.ofBits, Ideal.ieee, -EReal.coe_mul]; norm_num

/-- The two quotients agree on real families: the reference's weights `exp (k + w)` are `exp M` times the kernel's
    `exp w · exp (k - M)`, in the numerator and in the denominator. -/
theorem quot_eq (w k v : Fin 512 → ℝ) (M : ℝ) :
    Ideal.div
        (∑ s : Fin 512, Ideal.exp (w s : EReal) * (Ideal.exp ((k s : EReal) - (M : EReal)) * (v s : EReal)))
        (∑ s : Fin 512, Ideal.exp (w s : EReal) * Ideal.exp ((k s : EReal) - (M : EReal))) =
      Ideal.div
        ((0 : EReal) + ∑ s : Fin 512, Ideal.exp ((k s : EReal) + (w s : EReal)) * (v s : EReal))
        ((0 : EReal) + ∑ s : Fin 512, Ideal.exp ((k s : EReal) + (w s : EReal))) := by
  -- every term is the coercion of a real
  have hA : (∑ s : Fin 512, Ideal.exp (w s : EReal) * (Ideal.exp ((k s : EReal) - (M : EReal)) * (v s : EReal))) =
      ((∑ s : Fin 512, Real.exp (w s) * (Real.exp (k s - M) * v s) : ℝ) : EReal) := by
    rw [← coe_sum]
    refine Finset.sum_congr rfl fun s _ => ?_
    rw [← EReal.coe_sub, Ideal.exp_coe, Ideal.exp_coe, ← EReal.coe_mul, ← EReal.coe_mul]
  have hB : (∑ s : Fin 512, Ideal.exp (w s : EReal) * Ideal.exp ((k s : EReal) - (M : EReal))) =
      ((∑ s : Fin 512, Real.exp (w s) * Real.exp (k s - M) : ℝ) : EReal) := by
    rw [← coe_sum]
    refine Finset.sum_congr rfl fun s _ => ?_
    rw [← EReal.coe_sub, Ideal.exp_coe, Ideal.exp_coe, ← EReal.coe_mul]
  have hC : (∑ s : Fin 512, Ideal.exp ((k s : EReal) + (w s : EReal)) * (v s : EReal)) =
      ((∑ s : Fin 512, Real.exp (k s + w s) * v s : ℝ) : EReal) := by
    rw [← coe_sum]
    refine Finset.sum_congr rfl fun s _ => ?_
    rw [← EReal.coe_add, Ideal.exp_coe, ← EReal.coe_mul]
  have hD : (∑ s : Fin 512, Ideal.exp ((k s : EReal) + (w s : EReal))) =
      ((∑ s : Fin 512, Real.exp (k s + w s) : ℝ) : EReal) := by
    rw [← coe_sum]
    refine Finset.sum_congr rfl fun s _ => ?_
    rw [← EReal.coe_add, Ideal.exp_coe]
  -- the reference's sums are `exp M` times the kernel's
  have hCA : (∑ s : Fin 512, Real.exp (k s + w s) * v s) =
      Real.exp M * ∑ s : Fin 512, Real.exp (w s) * (Real.exp (k s - M) * v s) := by
    rw [Finset.mul_sum]
    refine Finset.sum_congr rfl fun s _ => ?_
    rw [show k s + w s = M + (w s + (k s - M)) by ring, Real.exp_add, Real.exp_add]; ring
  have hDB : (∑ s : Fin 512, Real.exp (k s + w s)) =
      Real.exp M * ∑ s : Fin 512, Real.exp (w s) * Real.exp (k s - M) := by
    rw [Finset.mul_sum]
    refine Finset.sum_congr rfl fun s _ => ?_
    rw [show k s + w s = M + (w s + (k s - M)) by ring, Real.exp_add, Real.exp_add]
  -- the kernel's denominator is a positive real
  have hBpos : 0 < ∑ s : Fin 512, Real.exp (w s) * Real.exp (k s - M) :=
    Finset.sum_pos (fun s _ => mul_pos (Real.exp_pos _) (Real.exp_pos _)) ⟨0, Finset.mem_univ _⟩
  have hM : Real.exp M ≠ 0 := (Real.exp_pos M).ne'
  have hDne : Real.exp M * ∑ s : Fin 512, Real.exp (w s) * Real.exp (k s - M) ≠ 0 :=
    mul_ne_zero hM hBpos.ne'
  rw [hA, hB, hC, hD, zero_add, zero_add, hCA, hDB, Ideal.div_coe hBpos.ne', Ideal.div_coe hDne,
    ← EReal.coe_mul, ← EReal.coe_mul, EReal.coe_eq_coe_iff]
  have hB0 := hBpos.ne'
  field_simp

/-- A projection of real arrays is a real. -/
theorem proj_real {x : Rows} {W : Mat128x512} {β : Vec128} (hx : IsReal x) (hW : IsReal W) (hβ : IsReal β)
    (b : Fin 2) (s : Fin 512) (h : Fin 128) : ∃ r : ℝ, proj x W β b s h = (r : EReal) := by
  choose xr hxr using hx
  choose Wr hWr using hW
  choose βr hβr using hβ
  refine ⟨(∑ d : Fin 512, xr (ix3 b s d) * Wr (ix2 h d)) + βr (ix1 h), ?_⟩
  rw [proj, EReal.coe_add, ← coe_sum, hβr]
  congr 1
  refine Finset.sum_congr rfl fun d _ => ?_
  rw [hxr, hWr, EReal.coe_mul]

/-- A positional-bias entry of real factors is a real. -/
theorem lowRank_real {U : Mat512x128} {V : Mat128x512} (hU : IsReal U) (hV : IsReal V) (t s : Fin 512) :
    ∃ r : ℝ, lowRank U V t s = (r : EReal) := by
  choose Ur hUr using hU
  choose Vr hVr using hV
  refine ⟨∑ j : Fin 128, Ur (ix2 t j) * Vr (ix2 j s), ?_⟩
  rw [lowRank, ← coe_sum]
  refine Finset.sum_congr rfl fun j _ => ?_
  rw [hUr, hVr, EReal.coe_mul]

/-- The maximum of 512 reals, folded from -∞, is a real. -/
theorem colMax_real (k : Fin 512 → ℝ) : ∃ M : ℝ, colMax (fun s => (k s : EReal)) = (M : EReal) := by
  have hbot : (⊥ : EReal) < colMax (fun s => (k s : EReal)) := by
    rw [colMax, Finset.lt_fold_max]
    exact Or.inr ⟨0, Finset.mem_univ _, EReal.bot_lt_coe _⟩
  have htop : colMax (fun s => (k s : EReal)) < (⊤ : EReal) := by
    rw [colMax, Finset.fold_max_lt, ofBits_neg_inf]
    exact ⟨bot_lt_top, fun s _ => EReal.coe_lt_top _⟩
  exact ⟨(colMax (fun s => (k s : EReal))).toReal, (EReal.coe_toReal htop.ne hbot.ne').symm⟩

/-- On real inputs the kernel's value is the reference's value, at every index. -/
theorem ker_eq_ref (q kv : Rows) (Wq : Mat128x512) (bq : Vec128) (Wk : Mat128x512) (bk : Vec128) (Wv : Mat128x512)
    (bv : Vec128) (U : Mat512x128) (V : Mat128x512)
    (hq : IsReal q) (hkv : IsReal kv) (hWq : IsReal Wq) (hbq : IsReal bq) (hWk : IsReal Wk) (hbk : IsReal bk)
    (hWv : IsReal Wv) (hbv : IsReal bv) (hU : IsReal U) (hV : IsReal V)
    (b : Fin 2) (t : Fin 512) (h : Fin 128) :
    kerOut q kv Wq bq Wk bk Wv bv U V b t h = refOut q kv Wq bq Wk bk Wv bv U V b t h := by
  choose k hk using fun s => proj_real hkv hWk hbk b s h
  choose v hv using fun s => proj_real hkv hWv hbv b s h
  choose w hw using fun s => lowRank_real hU hV t s
  obtain ⟨M, hM⟩ := colMax_real k
  have hcol : colMax (fun s' => proj kv Wk bk b s' h) = (M : EReal) := by
    rw [← hM]; congr 1; funext s'; exact hk s'
  rw [kerOut, refOut, ofBits_one, Ideal.ofBits_zero_f32, hcol]
  simp only [hk, hv, hw]
  rw [quot_eq w k v M]
  rfl

end Cert.AftSpec

end
-- ==== Proof.Finite.lean ====
/-
  The precondition read back: when `finite_inputs` of the ten argument arrays is all ones, every entry of every array
  is a real number.

  The predicate is the conjunction, array by array, of "every entry's absolute value is below +∞".  Over the extended
  reals the absolute value `max x (-x)` of either infinity is +∞, which is not below +∞; so an entry that passes is
  a real.
-/
import proofs.«112643_j214748365538_2_alg».proof.Defs
import proofs.«112643_j214748365538_2_alg».proof.Proof.Gen.Pre_finite_inputs
import proofs.«112643_j214748365538_2_alg».proof.Proof.Spec
import Idealize.ShloMosaic.Lib.ReduceAll

noncomputable section

namespace Cert.AftFinite

open Idealize.ShloMosaic Idealize.SL.Sem Cert.AftSpec Cert.Pre_finite_inputs

/-- The scalar shape has one index. -/
instance : Subsingleton S_.Idx := ⟨fun a b => funext fun d => d.elim0⟩

/-- The +∞ word. -/
theorem ofBits_pos_inf : Ideal.ofBits .f32 0x7F800000#32 = (⊤ : EReal) := by
  simp [Ideal.ofBits, Ideal.ieee]

/-- An extended real whose absolute value is below +∞ is a real. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  rw [Ideal.cmpf_def, Ideal.hostAbsf_def, Ideal.absf_def, Ideal.ofBits_def, ofBits_pos_inf] at h
  induction x using EReal.rec with
  | bot => simp [Ideal.cmp] at h
  | coe r => exact ⟨r, rfl⟩
  | top => simp [Ideal.cmp] at h

/-- One array of the predicate: all entries pass, so all entries are real. -/
theorem isReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) :
    IsReal x := fun i =>
  real_of_abs_lt (x i) (Host.reduce_andi_all _ _ hr hu _ e i)

/-- The precondition on ten arrays gives the reality of each. -/
theorem real_args [Cert.Pre_finite_inputs.Facts] (x0 x1 : Rows) (x2 : Mat128x512) (x3 : Vec128) (x4 : Mat128x512)
    (x5 : Vec128) (x6 : Mat128x512) (x7 : Vec128) (x8 : Mat512x128) (x9 : Mat128x512)
    (h : Cert.Pre_finite_inputs.fn (F := Ideal) x0 x1 x2 x3 x4 x5 x6 x7 x8 x9 = (fun _ => 1#1)) :
    IsReal x0 ∧ IsReal x1 ∧ IsReal x2 ∧ IsReal x3 ∧ IsReal x4 ∧ IsReal x5 ∧ IsReal x6 ∧ IsReal x7 ∧ IsReal x8 ∧
      IsReal x9 := by
  have e := congrFun h ValueIdx.ix0
  dsimp only [Cert.Pre_finite_inputs.fn, Cert.Pre_finite_inputs.fn_part1, Cert.Pre_finite_inputs.fn_part2, andi] at e
  simp only [IntOp.andi_eq_one] at e
  obtain ⟨⟨⟨⟨⟨⟨⟨⟨⟨e0, e1⟩, e2⟩, e3⟩, e4⟩, e5⟩, e6⟩, e7⟩, e8⟩, e9⟩ := e
  exact ⟨isReal_of_all x0 _ _ _ e0, isReal_of_all x1 _ _ _ e1, isReal_of_all x2 _ _ _ e2, isReal_of_all x3 _ _ _ e3,
    isReal_of_all x4 _ _ _ e4, isReal_of_all x5 _ _ _ e5, isReal_of_all x6 _ _ _ e6, isReal_of_all x7 _ _ _ e7,
    isReal_of_all x8 _ _ _ e8, isReal_of_all x9 _ _ _ e9⟩

/-- On every device, each of the ten argument arrays the launch memory holds has only real entries. -/
theorem real_mem [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    IsReal ((m ((c.tc : Thread Cert.KernelIdeal.nD Cert.KernelIdeal.τ).loc Cert.KernelIdeal.main_arg0)) : Rows) ∧
      IsReal ((m ((c.tc : Thread Cert.KernelIdeal.nD Cert.KernelIdeal.τ).loc Cert.KernelIdeal.main_arg1)) : Rows) ∧
      IsReal ((m ((c.tc : Thread Cert.KernelIdeal.nD Cert.KernelIdeal.τ).loc Cert.KernelIdeal.main_arg2)) : Mat128x512) ∧
      IsReal ((m ((c.tc : Thread Cert.KernelIdeal.nD Cert.KernelIdeal.τ).loc Cert.KernelIdeal.main_arg3)) : Vec128) ∧
      IsReal ((m ((c.tc : Thread Cert.KernelIdeal.nD Cert.KernelIdeal.τ).loc Cert.KernelIdeal.main_arg4)) : Mat128x512) ∧
      IsReal ((m ((c.tc : Thread Cert.KernelIdeal.nD Cert.KernelIdeal.τ).loc Cert.KernelIdeal.main_arg5)) : Vec128) ∧
      IsReal ((m ((c.tc : Thread Cert.KernelIdeal.nD Cert.KernelIdeal.τ).loc Cert.KernelIdeal.main_arg6)) : Mat128x512) ∧
      IsReal ((m ((c.tc : Thread Cert.KernelIdeal.nD Cert.KernelIdeal.τ).loc Cert.KernelIdeal.main_arg7)) : Vec128) ∧
      IsReal ((m ((c.tc : Thread Cert.KernelIdeal.nD Cert.KernelIdeal.τ).loc Cert.KernelIdeal.main_arg8)) : Mat512x128) ∧
      IsReal ((m ((c.tc : Thread Cert.KernelIdeal.nD Cert.KernelIdeal.τ).loc Cert.KernelIdeal.main_arg9)) : Mat128x512) :=
  real_args _ _ _ _ _ _ _ _ _ _ (h c)

end Cert.AftFinite

end
-- ==== Proof.lean ====
/-
  An attention layer with a low-rank positional bias, computed by a two-region kernel, against its plain reference, over the
  extended reals and under the precondition that every input entry is finite.

  The reference weighs key row `s` by `exp (k s + w t s)` and returns `σ (qh) · (∑ s, weight · v s) / (∑ s, weight)`.  The kernel
  factors the weight as `exp (w t s) · exp (k s - M)`, `M` the column maximum of the keys: numerator and denominator both carry
  the factor `exp (-M)`, a positive real when the inputs are finite, so the two quotients agree (`Cert.AftSpec.ker_eq_ref`).
  The kernel's value is read off its run (`Cert.KernelIdeal.Whole.run`), the reference's off its operations one at a time
  (`Cert.AftRef.ref_value`); the idealization rewrote nothing, so the kernel and its idealization are one text.
-/
import proofs.«112643_j214748365538_2_alg».proof.Defs
import proofs.«112643_j214748365538_2_alg».proof.Proof.Gen.Kernel
import proofs.«112643_j214748365538_2_alg».proof.Proof.Gen.Kernel.Skeleton
import proofs.«112643_j214748365538_2_alg».proof.Proof.Gen.Kernel.Launch
import proofs.«112643_j214748365538_2_alg».proof.Proof.Gen.Kernel.Points
import proofs.«112643_j214748365538_2_alg».proof.Proof.Gen.Kernel.Frame
import proofs.«112643_j214748365538_2_alg».proof.Proof.Gen.KernelIdeal
import proofs.«112643_j214748365538_2_alg».proof.Proof.Gen.KernelIdeal.Skeleton
import proofs.«112643_j214748365538_2_alg».proof.Proof.Gen.KernelIdeal.Launch
import proofs.«112643_j214748365538_2_alg».proof.Proof.Gen.KernelIdeal.Points
import proofs.«112643_j214748365538_2_alg».proof.Proof.Gen.KernelIdeal.Frame
import proofs.«112643_j214748365538_2_alg».proof.Proof.Gen.ReferenceIdeal
import proofs.«112643_j214748365538_2_alg».proof.Proof.Gen.ReferenceIdeal.Run
import proofs.«112643_j214748365538_2_alg».proof.Proof.Gen.ReferenceIdeal.Read
import proofs.«112643_j214748365538_2_alg».proof.Proof.Gen.Pre_finite_inputs
import proofs.«112643_j214748365538_2_alg».proof.Proof.KFinal
import proofs.«112643_j214748365538_2_alg».proof.Proof.RefSide
import proofs.«112643_j214748365538_2_alg».proof.Proof.Law
import proofs.«112643_j214748365538_2_alg».proof.Proof.Finite
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the kernel's function of the arguments: the kernel by its
    run, the reference because its value is `refOut`, which is `kerOut` when every input entry is a real number. -/
theorem algebraic : Cert.algebraic_KernelIdeal_ReferenceIdeal := by
  intro m ρ m' ρ' hpre hagree
  refine ⟨fun c => Cert.KernelIdeal.Whole.kerArr m c, Cert.KernelIdeal.Whole.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7, a8, a9⟩ := hagree c
  obtain ⟨r0, r1, r2, r3, r4, r5, r6, r7, r8, r9⟩ := Cert.AftFinite.real_mem m hpre c
  rw [(h c).1, Cert.ReferenceIdeal.Read.val_main_v31_eq, Cert.AftRef.ref_value, a0, a1, a2, a3, a4, a5, a6, a7, a8, a9]
  funext i
  exact (Cert.AftSpec.ker_eq_ref _ _ _ _ _ _ _ _ _ _ r0 r1 r2 r3 r4 r5 r6 r7 r8 r9 (i 0) (i 1) (i 2)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
